-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000x4 : Shape := ⟨3, ![1, 100000, 4]⟩
abbrev S2x3200000 : Shape := ⟨2, ![2, 3200000]⟩
abbrev S4x64 : Shape := ⟨2, ![4, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S1x100000x4 : S_.BroadcastsInDim S1x100000x4 (![] : Fin 0 → Fin S1x100000x4.rank)
  reducesTo_S1x100000x4_S_d0_1_2 : S1x100000x4.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x3 .f32) (main_arg11 : FVec F S3 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x3 .f32 := Host.absf main_arg10
  let main_cst_16 : FVec F S_ .f32 := constant S_ .f32 0x7F800000#32
  let main_v45 : FVec F S64x3 .f32 := broadcastInDim S64x3 ![] bcast_S_S64x3 main_cst_16
  let main_v46 : IVec S64x3 1 := cmpf .olt main_v44 main_v45
  let main_c_17 : IVec S_ 1 := constantI S_ 1 1#1
  let main_v47 : IVec S_ 1 := (fun x v => Host.reduce IntOp.andi x v reducesTo_S64x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x3 .f32) (main_arg11 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S1x100000x4 .f32) (main_arg1 : IVec S2x3200000 32) (main_arg2 : FVec F S4x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x3 .f32) (main_arg11 : FVec F S3 .f32) : IVec S_ 1 :=
  let main_v0 : FVec F S1x100000x4 .f32 := Host.absf main_arg0
  let main_cst : FVec F S_ .f32 := constant S_ .f32 0x7F800000#32
  let main_v1 : FVec F S1x100000x4 .f32 := broadcastInDim S1x100000x4 ![] bcast_S_S1x100000x4 main_cst
  let main_v2 : IVec S1x100000x4 1 := cmpf .olt main_v0 main_v1
  let main_c : IVec S_ 1 := constantI S_ 1 1#1
  let main_v3 : IVec S_ 1 := (fun x v => Host.reduce IntOp.andi x v reducesTo_S1x100000x4_S_d0_1_2 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S1x100000x4 : Shape := ⟨3, ![1, 100000, 4]⟩
abbrev S2x3200000 : Shape := ⟨2, ![2, 3200000]⟩
abbrev S4x64 : Shape := ⟨2, ![4, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x4 : Shape := ⟨2, ![100000, 4]⟩
abbrev S100000x64 : Shape := ⟨2, ![100000, 64]⟩
abbrev S10000x4 : Shape := ⟨2, ![10000, 4]⟩
abbrev S10000x64 : Shape := ⟨2, ![10000, 64]⟩
abbrev S1x64 : Shape := ⟨2, ![1, 64]⟩
abbrev S3300000x64 : Shape := ⟨2, ![3300000, 64]⟩
abbrev S100000x3 : Shape := ⟨2, ![100000, 3]⟩
abbrev S10000x3 : Shape := ⟨2, ![10000, 3]⟩
abbrev S1x3 : Shape := ⟨2, ![1, 3]⟩
abbrev S1x100000x3 : Shape := ⟨3, ![1, 100000, 3]⟩

abbrev nBuf : Space → Nat
  | .hbm => 109
  | .vmem => 45
  | .smem => 0
  | _ => 0

abbrev bufTy : (tb : Table) → Fin (tcTables nBuf tb) → BufTy
  | .hbm, ⟨0, _⟩ => ⟨S1x100000x4, .f32⟩
  | .hbm, ⟨1, _⟩ => ⟨S2x3200000, .i32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x3, .f32⟩
  | .hbm, ⟨11, _⟩ => ⟨S3, .f32⟩
  | .hbm, ⟨12, _⟩ => ⟨S100000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S1x3200000, .i32⟩
  | .hbm, ⟨17, _⟩ => ⟨S3200000, .i32⟩
  | .hbm, ⟨18, _⟩ => ⟨S3300000, .i32⟩
  | .hbm, ⟨19, _⟩ => ⟨S_, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x4, .f32⟩
  | .hbm, ⟨46, _⟩ => ⟨S100000x64, .f32⟩
  | .hbm, ⟨47, _⟩ => ⟨S_, .f32⟩
  | .hbm, ⟨48, _⟩ => ⟨S64, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S64, .f32⟩
  | .hbm, ⟨69, _⟩ => ⟨S100000x64, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x64, .f32⟩
  | .hbm, ⟨79, _⟩ => ⟨S3300000x1, .f32⟩
  | .hbm, ⟨80, _⟩ => ⟨S3300000x64, .f32⟩
  | .hbm, ⟨81, _⟩ => ⟨S3300000x64, .f32⟩
  | .hbm, ⟨82, _⟩ => ⟨S_, .f32⟩
  | .hbm, ⟨83, _⟩ => ⟨S100000x64, .f32⟩
  | .hbm, ⟨84, _⟩ => ⟨S3300000x1, .i32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S64, .f32⟩
  | .hbm, ⟨89, _⟩ => ⟨S100000x64, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000x64, .f32⟩
  | .hbm, ⟨99, _⟩ => ⟨S3300000x1, .f32⟩
  | .hbm, ⟨100, _⟩ => ⟨S3300000x64, .f32⟩
  | .hbm, ⟨101, _⟩ => ⟨S3300000x64, .f32⟩
  | .hbm, ⟨102, _⟩ => ⟨S_, .f32⟩
  | .hbm, ⟨103, _⟩ => ⟨S100000x64, .f32⟩
  | .hbm, ⟨104, _⟩ => ⟨S3300000x1, .i32⟩
  | .hbm, ⟨105, _⟩ => ⟨S100000x64, .f32⟩
  | .hbm, ⟨106, _⟩ => ⟨S100000x64, .f32⟩
  | .hbm, ⟨107, _⟩ => ⟨S100000x3, .f32⟩
  | .hbm, ⟨108, _⟩ => ⟨S1x100000x3, .f32⟩
  | .local _ .vmem, ⟨0, _⟩ => ⟨S10000x4, .f32⟩
  | .local _ .vmem, ⟨1, _⟩ => ⟨S10000x4, .f32⟩
  | .local _ .vmem, ⟨2, _⟩ => ⟨S4x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S64x3, .f32⟩
  | .local _ .vmem, ⟨42, _⟩ => ⟨S3, .f32⟩
  | .local _ .vmem, ⟨43, _⟩ => ⟨S10000x3, .f32⟩
  | .local _ .vmem, ⟨44, _⟩ => ⟨S10000x3, .f32⟩
  | _, _ => ⟨S1x100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg3_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc7_sem3_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x3 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S3 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x3 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S1x100000x4_S100000x4 : S1x100000x4.ShapeCasts S100000x4
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S64 : S_.BroadcastsInDim S64 (![] : Fin 0 → Fin S64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64_S64 : S64.ShapeCasts S64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  shapeCasts_S100000x3_S1x100000x3 : S100000x3.ShapeCasts S1x100000x3
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x4_S4x64_S10000x64_1_0_0_1_n_n_wf : DotDims.WF S10000x4 S4x64 S10000x64 [1] [0] [0] [1] [] []
  dot_S10000x64_S64x64_S10000x64_1_0_0_1_n_n_wf : DotDims.WF S10000x64 S64x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x3_S10000x3_1_0_0_1_n_n_wf : DotDims.WF S10000x64 S64x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64.size a ≤ S64.size a
  hwx4_1 : ∀ i : grid4.Coords, EltTy.bits .f32 = 32 ∨ (Rect.block (s := S64) S64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64.size a ≤ S64.size a
  hwx6_1 : ∀ i : grid6.Coords, EltTy.bits .f32 = 32 ∨ (Rect.block (s := S64) S64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x3.size a ≤ S64x3.size a
  hwx7_1 : ∀ i : grid7.Coords, EltTy.bits .f32 = 32 ∨ (Rect.block (s := S64x3) S64x3.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S3.size a ≤ S3.size a
  hwx7_2 : ∀ i : grid7.Coords, EltTy.bits .f32 = 32 ∨ (Rect.block (s := S3) S3.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x3.size a ≤ S100000x3.size a
  hwx7_3 : ∀ i : grid7.Coords, EltTy.bits .f32 = 32 ∨ (Rect.block (s := S100000x3) S10000x3.size (cc7_transform_3 i) (hinb7_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x3_S10000x3_1_0_0_1_n_n : DotDims S10000x64 S64x3 S10000x3 where
  lhsContracting := [1]
  rhsContracting := [0]
  lhsNonContracting := [0]
  rhsNonContracting := [1]
  lhsBatch := []
  rhsBatch := []
  wf := dot_S10000x64_S64x3_S10000x3_1_0_0_1_n_n_wf

abbrev win0_0 : Pipeline.Window sig grid0 :=
  Pipeline.Window.ofSpec (Memref.whole main_v27) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v59) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v75) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v76) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x3.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg11) S3.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v77) S10000x3.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S1x100000x4 : Shape := ⟨3, ![1, 100000, 4]⟩
abbrev S2x3200000 : Shape := ⟨2, ![2, 3200000]⟩
abbrev S4x64 : Shape := ⟨2, ![4, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x4 : Shape := ⟨2, ![100000, 4]⟩
abbrev S100000x64 : Shape := ⟨2, ![100000, 64]⟩
abbrev S1x64 : Shape := ⟨2, ![1, 64]⟩
abbrev S3300000x64 : Shape := ⟨2, ![3300000, 64]⟩
abbrev S100000x3 : Shape := ⟨2, ![100000, 3]⟩
abbrev S1x3 : Shape := ⟨2, ![1, 3]⟩
abbrev S1x100000x3 : Shape := ⟨3, ![1, 100000, 3]⟩

abbrev nBuf : Space → Nat
  | .hbm => 131
  | .vmem => 0
  | .smem => 0
  | _ => 0

abbrev hbmTy0_0 (i : Nat) : BufTy := match i % 128 with
  | 0 => ⟨S1x100000x4, .f32⟩
  | 1 => ⟨S2x3200000, .i32⟩
  | 2 => ⟨S4x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x3, .f32⟩
  | 11 => ⟨S3, .f32⟩
  | 12 => ⟨S100000, .i32⟩
  | 13 => ⟨S1x3200000, .i32⟩
  | 14 => ⟨S3200000, .i32⟩
  | 15 => ⟨S3300000, .i32⟩
  | 16 => ⟨S1x3200000, .i32⟩
  | 17 => ⟨S3200000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S100000, .f32⟩
  | 26 => ⟨S_, .i32⟩
  | 27 => ⟨S3300000, .i32⟩
  | 28 => ⟨S3300000, .i1⟩
  | 29 => ⟨S_, .i32⟩
  | 30 => ⟨S3300000, .i32⟩
  | 31 => ⟨S3300000, .i32⟩
  | 32 => ⟨S3300000, .i32⟩
  | 33 => ⟨S3300000x1, .i32⟩
  | 34 => ⟨S3300000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S3300000, .f32⟩
  | 45 => ⟨S100000x4, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S100000x64, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000x64, .f32⟩
  | 86 => ⟨S3300000x1, .f32⟩
  | 87 => ⟨S3300000x64, .f32⟩
  | 88 => ⟨S3300000x64, .f32⟩
  | 89 => ⟨S_, .f32⟩
  | 90 => ⟨S100000x64, .f32⟩
  | 91 => ⟨S3300000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000x64, .f32⟩
  | 109 => ⟨S3300000x1, .f32⟩
  | 110 => ⟨S3300000x64, .f32⟩
  | 111 => ⟨S3300000x64, .f32⟩
  | 112 => ⟨S_, .f32⟩
  | 113 => ⟨S100000x64, .f32⟩
  | 114 => ⟨S3300000x1, .i32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x3, .f32⟩
  | 123 => ⟨S1x3, .f32⟩
  | 124 => ⟨S100000x3, .f32⟩
  | 125 => ⟨S100000x3, .f32⟩
  | 126 => ⟨S100000x3, .f32⟩
  | 127 => ⟨S_, .f32⟩
  | _ => ⟨S1x100000x4, .f32⟩

abbrev hbmTy0_1 (i : Nat) : BufTy := match i % 128 with
  | 0 => ⟨S100000x3, .f32⟩
  | 1 => ⟨S100000x3, .f32⟩
  | 2 => ⟨S1x100000x3, .f32⟩
  | _ => ⟨S1x100000x4, .f32⟩

abbrev hbmTy (i : Nat) : BufTy := match i / 128 with
  | 0 => hbmTy0_0 i
  | 1 => hbmTy0_1 i
  | _ => ⟨S1x100000x4, .f32⟩

abbrev bufTy : (tb : Table) → Fin (tcTables nBuf tb) → BufTy
  | .hbm, ⟨i, _⟩ => hbmTy i
  | _, _ => ⟨S1x100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_c_7 : Ref sig .tc := ⟨.hbm, 77, rfl⟩
abbrev main_v52 : Ref sig .tc := ⟨.hbm, 78, rfl⟩
abbrev main_v53 : Ref sig .tc := ⟨.hbm, 79, rfl⟩
abbrev main_c_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call2_cst : Ref sig .tc := ⟨.hbm, 96, rfl⟩
abbrev main_call2_v0 : Ref sig .tc := ⟨.hbm, 97, rfl⟩
abbrev main_v68 : Ref sig .tc := ⟨.hbm, 98, rfl⟩
abbrev main_v69 : Ref sig .tc := ⟨.hbm, 99, rfl⟩
abbrev main_c_10 : Ref sig .tc := ⟨.hbm, 100, rfl⟩
abbrev main_v70 : Ref sig .tc := ⟨.hbm, 101, rfl⟩
abbrev main_v71 : Ref sig .tc := ⟨.hbm, 102, rfl⟩
abbrev main_c_11 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_12 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_call3_cst : Ref sig .tc := ⟨.hbm, 119, rfl⟩
abbrev main_call3_v0 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_13 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S1x100000x4_S100000x4 : S1x100000x4.ShapeCasts S100000x4
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S3300000x1_S3300000x64_0_1 : S3300000x1.BroadcastsInDim S3300000x64 (![0, 1] : Fin 2 → Fin S3300000x64.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S_S100000x3 : S_.BroadcastsInDim S100000x3 (![] : Fin 0 → Fin S100000x3.rank)
  shapeCasts_S100000x3_S1x100000x3 : S100000x3.ShapeCasts S1x100000x3
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x4_S4x64_S100000x64_1_0_0_1_n_n_wf : DotDims.WF S100000x4 S4x64 S100000x64 [1] [0] [0] [1] [] []
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x3_S100000x3_1_0_0_1_n_n_wf : DotDims.WF S100000x64 S64x3 S100000x3 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KernelRun.lean ====
/-
  The whole program's run with its result named.

  The program is sixteen segments: stretches of host operations and eight kernel launches. The buffer contents at
  each boundary are a fold from the launch memory: a stretch applies its operations, a launch replaces its arrays by
  what its write-backs leave and keeps every other buffer. Every weakly fair execution ends, without a fault, with
  every unscoped buffer at the last boundary's contents; in particular the result buffer holds the last boundary's
  contents at the result, and each argument holds what it held at launch.
-/
import proofs.«114775_j59098749993604_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents and
    each argument as launched. -/
theorem run_result : θ_run defs (onTc (τ := τ) (main (F := F))) ⟨m, fun _ => 0, ρ⟩ (fun r => ∀ c : Dev nD,
      r.2.mem ((c.tc : Thread nD τ).loc main_v78) = W16 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v78 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.Whole

end
-- ==== Proof.LibDenseRows.lean ====
/-
  A dense layer acts on a matrix one row at a time.

  For a matrix A (m rows of k entries), a weight matrix W (k by n) and a bias laid as a one-row matrix B (1 by n),
  row p of  A·W + B  is the affine image  a ↦ a·W + B  of row p of A, and nothing else of A enters it. The same
  holds after clamping at zero, after a second such layer, and after adding the input row back. So each dense
  stage of the network is a function of one row applied to every row, and a block of consecutive rows of the
  result is that function applied to the same rows of the input.

  Two spellings of one affine layer are read here at row p and column q:
  * a product accumulated into a zero matrix, plus the one-row bias copied down the rows by aligning trailing axes;
  * a plain product, plus the one-row bias copied down the rows by naming the axes.
  Both are  ∑ c, A(p, c) · W(c, q) + B(0, q): the accumulator is the extended real 0 and 0 + x = x, so no
  finiteness is used. A vector laid as a one-row matrix is the same matrix whether it is recast or broadcast.
-/
import Idealize.ShloMosaic.Lib.StackMember
import Idealize.ShloMosaic.Lib.KernelVsHost
import Idealize.ShloMosaic.Lib.ValueLayout
import Idealize.ShloMosaic.PureOps.Ideal.Laws

noncomputable section

namespace DenseRows

open Idealize.ShloMosaic Idealize.ShloMosaic.ValueIdx Idealize.ShloMosaic.StackMember

variable {m k n : Nat}

/-- A matrix of extended reals, entry by entry. -/
abbrev Mat (m n : Nat) := (⟨2, ![m, n]⟩ : Shape).Idx → EReal

/-- Row p of a matrix. -/
def row (A : Mat m k) (p : Fin m) : Fin k → EReal := fun c => A (ix2 p c)

/-- The affine image of one row: a·W + B, with B a one-row matrix. -/
def affine (W : Mat k n) (B : Mat 1 n) (a : Fin k → EReal) : Fin n → EReal :=
  fun q => (∑ c : Fin k, a c * W (ix2 c q)) + B (ix2 (0 : Fin 1) q)

/-- A row clamped below at the zero word's value. -/
def clamp (v : Fin n → EReal) : Fin n → EReal := fun q => max (v q) (Ideal.ofBits .f32 0x00000000#32)

/-- A function of one row applied to every row of a matrix. -/
def onRows (f : (Fin k → EReal) → Fin n → EReal) (A : Mat m k) : Mat m n := fun i => f (row A (i 0)) (i 1)

theorem onRows_apply (f : (Fin k → EReal) → Fin n → EReal) (A : Mat m k) (p : Fin m) (q : Fin n) :
    onRows f A (ix2 p q) = f (row A p) q := rfl

variable {α : Type}

/-- A one-row matrix copied down m rows by aligning trailing axes: at (p, q) it is the row's entry q. -/
theorem broadcastTo_oneRow_apply (B : (⟨2, ![1, n]⟩ : Shape).Idx → α)
    (h : (⟨2, ![1, n]⟩ : Shape).Broadcasts ⟨2, ![m, n]⟩) (p : Fin m) (q : Fin n) :
    broadcastTo ⟨2, ![m, n]⟩ B h (ix2 p q) = B (ix2 (0 : Fin 1) q) := by
  refine broadcastTo_apply B h (ix2 p q) (ix2 (0 : Fin 1) q) fun ax => ?_
  match ax with
  | ⟨0, _⟩ => rfl
  | ⟨1, _⟩ =>
    show q.val = if n = 1 then 0 else q.val
    split
    · have := q.isLt; omega
    · rfl

/-- A vector recast as a one-row matrix is the vector broadcast along axis 1 of a one-row matrix. -/
theorem shapeCast_row_eq_broadcastInDim (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext i
  obtain ⟨u, q, rfl⟩ : ∃ (u : Fin 1) (q : Fin n), i = ix2 u q := ⟨i 0, i 1, eq_ix2 i⟩
  have e1 := shapeCast_apply b h1 (ix2 u q) (ix1 q) (by
    rw [Shape.rowMajor_val_two, Shape.rowMajor_val_one]
    show q.val = u.val * n + q.val
    have := u.isLt; have hu : u.val = 0 := by omega
    rw [hu]; omega)
  have e2 := broadcastInDim_apply ![1] hd b (ix2 u q) (ix1 q) (by
    intro a
    match a with
    | ⟨0, _⟩ =>
      show q.val = if n = 1 then 0 else q.val
      split
      · have := q.isLt; omega
      · rfl)
  exact e1.trans e2.symm

/-- One affine layer in the accumulating spelling, on m rows: at (p, q) it is the affine image of row p. -/
theorem matmul_bias_apply {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) (q : Fin n) :
    addf (matmul (DotDims.plain m k n) prec X W (constant (F := Ideal) ⟨2, ![m, n]⟩ .f32 0x00000000#32))
        (broadcastTo ⟨2, ![m, n]⟩ B hb) (ix2 p q)
      = affine (n := n) W B (row (k := k) X p) q := by
  show matmul (DotDims.plain m k n) prec X W (constant (F := Ideal) ⟨2, ![m, n]⟩ .f32 0x00000000#32) (ix2 p q)
      + broadcastTo ⟨2, ![m, n]⟩ B hb (ix2 p q) = (∑ c : Fin k, X (ix2 p c) * W (ix2 c q)) + B (ix2 (0 : Fin 1) q)
  rw [matmul_zero_eq_dotGeneral, dotGeneral_plain_apply, broadcastTo_oneRow_apply]

/-- One affine layer in the plain spelling, on m rows: at (p, q) it is the affine image of row p. -/
theorem dot_bias_apply {φ₁ φ₂ : FTy} (prec : Option ContractPrecision)
    (A : FVec Ideal ⟨2, ![m, k]⟩ φ₁) (W : FVec Ideal ⟨2, ![k, n]⟩ φ₂) (B : FVec Ideal ⟨2, ![1, n]⟩ .f32)
    (hbc : (⟨2, ![1, n]⟩ : Shape).BroadcastsInDim ⟨2, ![m, n]⟩ ![0, 1]) (p : Fin m) (q : Fin n) :
    addf (Host.dotGeneral (DotDims.plain m k n) prec A W) (broadcastInDim ⟨2, ![m, n]⟩ ![0, 1] hbc B) (ix2 p q)
      = affine (n := n) W B (row (k := k) A p) q := by
  show Host.dotGeneral (DotDims.plain m k n) prec A W (ix2 p q) + broadcastInDim ⟨2, ![m, n]⟩ ![0, 1] hbc B (ix2 p q)
      = (∑ c : Fin k, A (ix2 p c) * W (ix2 c q)) + B (ix2 (0 : Fin 1) q)
  rw [dotGeneral_plain_apply, broadcastInDim_oneRow_apply]

/-- One clamped affine layer in the accumulating spelling: at (p, q) the clamped affine image of row p. -/
theorem clamped_matmul_bias_apply {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) (q : Fin n) :
    maximumf (addf (matmul (DotDims.plain m k n) prec X W (constant (F := Ideal) ⟨2, ![m, n]⟩ .f32 0x00000000#32))
        (broadcastTo ⟨2, ![m, n]⟩ B hb)) (broadcast ⟨2, ![m, n]⟩ (Scalar.ofBits (F := Ideal) .f32 0x00000000#32)) (ix2 p q)
      = clamp (affine (n := n) W B (row (k := k) X p)) q := by
  show max (addf (matmul (DotDims.plain m k n) prec X W (constant (F := Ideal) ⟨2, ![m, n]⟩ .f32 0x00000000#32))
        (broadcastTo ⟨2, ![m, n]⟩ B hb) (ix2 p q)) (Ideal.ofBits .f32 0x00000000#32) = _
  rw [matmul_bias_apply]
  rfl

/-- Row p of one clamped affine layer in the accumulating spelling, whatever float format it is then read at. -/
theorem row_clamped_matmul_bias {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) :
    row (m := m) (k := n) (maximumf (addf (matmul (DotDims.plain m k n) prec X W (constant (F := Ideal) ⟨2, ![m, n]⟩ .f32 0x00000000#32))
        (broadcastTo ⟨2, ![m, n]⟩ B hb)) (broadcast ⟨2, ![m, n]⟩ (Scalar.ofBits (F := Ideal) .f32 0x00000000#32))) p
      = clamp (affine (n := n) W B (row (k := k) X p)) :=
  funext fun q => clamped_matmul_bias_apply prec X W B hb p q

/-- One clamped affine layer in the plain spelling, clamped against a broadcast zero constant: at (p, q) the
    clamped affine image of row p. -/
theorem clamped_dot_bias_apply {φ₁ φ₂ : FTy} (prec : Option ContractPrecision)
    (A : FVec Ideal ⟨2, ![m, k]⟩ φ₁) (W : FVec Ideal ⟨2, ![k, n]⟩ φ₂) (B : FVec Ideal ⟨2, ![1, n]⟩ .f32)
    (hbc : (⟨2, ![1, n]⟩ : Shape).BroadcastsInDim ⟨2, ![m, n]⟩ ![0, 1])
    (hz : (⟨0, ![]⟩ : Shape).BroadcastsInDim ⟨2, ![m, n]⟩ ![]) (p : Fin m) (q : Fin n) :
    maximumf (addf (Host.dotGeneral (DotDims.plain m k n) prec A W) (broadcastInDim ⟨2, ![m, n]⟩ ![0, 1] hbc B))
        (broadcastInDim ⟨2, ![m, n]⟩ ![] hz (constant (F := Ideal) ⟨0, ![]⟩ .f32 0x00000000#32)) (ix2 p q)
      = clamp (affine (n := n) W B (row (k := k) A p)) q := by
  show max (addf (Host.dotGeneral (DotDims.plain m k n) prec A W) (broadcastInDim ⟨2, ![m, n]⟩ ![0, 1] hbc B) (ix2 p q))
      (Ideal.ofBits .f32 0x00000000#32) = _
  rw [dot_bias_apply]
  rfl

/-! ## The three kinds of stage, as functions of one row -/

/-- Two clamped affine layers: the encoder. -/
def encoderRow {k h n : Nat} (W0 : Mat k h) (B0 : Mat 1 h) (W1 : Mat h n) (B1 : Mat 1 n) (a : Fin k → EReal) : Fin n → EReal :=
  clamp (affine W1 B1 (clamp (affine W0 B0 a)))

/-- One clamped affine layer with the input row added back: a hop's update. -/
def hopRow {k : Nat} (W : Mat k k) (B : Mat 1 k) (a : Fin k → EReal) : Fin k → EReal :=
  fun q => clamp (affine W B a) q + a q

/-- A clamped affine layer followed by a plain affine layer: the decoder. -/
def decoderRow {k h n : Nat} (W0 : Mat k h) (B0 : Mat 1 h) (W1 : Mat h n) (B1 : Mat 1 n) (a : Fin k → EReal) : Fin n → EReal :=
  affine W1 B1 (clamp (affine W0 B0 a))

end DenseRows

end
-- ==== Proof.DenseStages.lean ====
/-
  The dense stages of the network, each as a function of one row applied to every row.

  Four kinds of stage occur. With a weight matrix W (k by n), a bias laid as a one-row matrix B (1 by n) and an
  input row a:
  * the clamped affine layer     max (a·W + B, 0)           (the embedding);
  * the plain product            a·W                        (the projection inside a graph convolution);
  * the shifted clamp            max (a + B, 0)             (what follows the neighbour sum);
  * the scaled tanh layer        tanh (a·W + B) · π₃₂       (the read-out; π₃₂ is the float nearest π).
  Each is read here in two spellings — the host's (a plain matrix product, the bias copied down the rows by naming
  axes, the clamp against a broadcast zero constant) and the vector unit's (a product accumulated into a zero
  matrix, the bias recast as a one-row matrix and copied down the rows, the clamp against a splat zero) — and both
  are the same row function applied to every row. Nothing here needs the entries to be finite: the only law used is
  x + 0 = x, which holds at the infinities too.
-/
import proofs.«114775_j59098749993604_1_alg».proof.Proof.LibDenseRows

noncomputable section

namespace GcnRows

open Idealize.ShloMosaic Idealize.ShloMosaic.ValueIdx Idealize.ShloMosaic.StackMember DenseRows

variable {m k n : Nat}

/-- One row times the weight matrix, no bias. -/
def linear (W : Mat k n) (a : Fin k → EReal) : Fin n → EReal := fun q => ∑ c : Fin k, a c * W (ix2 c q)

/-- The bias row added to one row, then the clamp at zero. -/
def shiftClamp (B : Mat 1 n) (a : Fin n → EReal) : Fin n → EReal := clamp fun q => a q + B (ix2 (0 : Fin 1) q)

/-- The affine image of one row through tanh, times the float nearest π. -/
def tanhPi (W : Mat k n) (B : Mat 1 n) (a : Fin k → EReal) : Fin n → EReal :=
  fun q => Ideal.tanh (affine W B a q) * Ideal.ofBits .f32 0x40490FDB#32

/-- With a bias row that is zero everywhere the affine image of a row is its plain product with the matrix. -/
theorem affine_zero_bias (W : Mat k n) (B : Mat 1 n) (hB : ∀ i, B i = 0) (a : Fin k → EReal) : affine W B a = linear W a := by
  funext q
  show (∑ c : Fin k, a c * W (ix2 c q)) + B (ix2 (0 : Fin 1) q) = ∑ c : Fin k, a c * W (ix2 c q)
  rw [hB, add_zero]

/-! ## The host's spelling -/

/-- The clamped affine layer, host spelling, is the clamped affine row function on every row. -/
theorem host_clampedAffine (prec : Option ContractPrecision)
    (A : FVec Ideal ⟨2, ![m, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h01 : (⟨2, ![1, n]⟩ : Shape).BroadcastsInDim ⟨2, ![m, n]⟩ ![0, 1])
    (hz : (⟨0, ![]⟩ : Shape).BroadcastsInDim ⟨2, ![m, n]⟩ ![]) :
    maximumf (addf (Host.dotGeneral (DotDims.plain m k n) prec A W)
        (broadcastInDim ⟨2, ![m, n]⟩ ![0, 1] h01 (broadcastInDim ⟨2, ![1, n]⟩ ![1] h1 b)))
        (broadcastInDim ⟨2, ![m, n]⟩ ![] hz (constant (F := Ideal) ⟨0, ![]⟩ .f32 0x00000000#32))
      = onRows (fun a => clamp (affine W (broadcastInDim ⟨2, ![1, n]⟩ ![1] h1 b) a)) A := by
  funext i
  obtain ⟨p, q, rfl⟩ : ∃ (p : Fin m) (q : Fin n), i = ix2 p q := ⟨i 0, i 1, eq_ix2 i⟩
  rw [clamped_dot_bias_apply, onRows_apply]

/-- The plain product, host spelling, is the row-times-matrix function on every row. -/
theorem host_linear (prec : Option ContractPrecision)
    (A : FVec Ideal ⟨2, ![m, k]⟩ .f32) (W : FVec Ideal ⟨2, ![k, n]⟩ .f32) :
    Host.dotGeneral (DotDims.plain m k n) prec A W = onRows (linear W) A := by
  funext i
  obtain ⟨p, q, rfl⟩ : ∃ (p : Fin m) (q : Fin n), i = ix2 p q := ⟨i 0, i 1, eq_ix2 i⟩
  rw [dotGeneral_plain_apply, onRows_apply]
  rfl

/-- The shifted clamp, host spelling, is the shifted-clamp row function on every row. -/
theorem host_shiftClamp (A : FVec Ideal ⟨2, ![m, n]⟩ .f32) (b : FVec Ideal ⟨1, ![n]⟩ .f32)
    (h1 : (⟨1, ![n]⟩ : Shape).BroadcastsInDim ⟨2, ![1, n]⟩ ![1])
    (h01 : (⟨2, ![1, n]⟩ : Shape).BroadcastsInDim ⟨2, ![m, n]⟩ ![0, 1])
    (hz : (⟨0, ![]⟩ : Shape).BroadcastsInDim ⟨2, ![m, n]⟩ ![]) :
    maximumf (addf A (broadcastInDim ⟨2, ![m, n]⟩ ![0, 1] h01 (broadcastInDim ⟨2, ![1, n]⟩ ![1] h1 b)))
        (broadcastInDim ⟨2, ![m, n]⟩ ![] hz (constant (F := Ideal) ⟨0, ![]⟩ .f32 0x00000000#32))
      = onRows (shiftClamp (broadcastInDim ⟨2, ![1, n]⟩ ![1] h1 b)) A := by
  funext i
  obtain ⟨p, q, rfl⟩ : ∃ (p : Fin m) (q : Fin n), i = ix2 p q := ⟨i 0, i 1, eq_ix2 i⟩
  show max (A (ix2 p q) + broadcastInDim ⟨2, ![m, n]⟩ ![0, 1] h01 (broadcastInDim ⟨2, ![1, n]⟩ ![1] h1 b) (ix2 p q))
      (Ideal.ofBits .f32 0x00000000#32) = _
  rw [broadcastInDim_oneRow_apply, onRows_apply]
  rfl

/-- The scaled tanh layer, host spelling, is the scaled-tanh row function on every row. -/
theorem host_tanhPi (prec : Option ContractPrecision)
    (A : FVec Ideal ⟨2, ![m, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h01 : (⟨2, ![1, n]⟩ : Shape).BroadcastsInDim ⟨2, ![m, n]⟩ ![0, 1])
    (hp : (⟨0, ![]⟩ : Shape).BroadcastsInDim ⟨2, ![m, n]⟩ ![]) :
    mulf (Host.tanh (addf (Host.dotGeneral (DotDims.plain m k n) prec A W)
        (broadcastInDim ⟨2, ![m, n]⟩ ![0, 1] h01 (broadcastInDim ⟨2, ![1, n]⟩ ![1] h1 b))))
        (broadcastInDim ⟨2, ![m, n]⟩ ![] hp (constant (F := Ideal) ⟨0, ![]⟩ .f32 0x40490FDB#32))
      = onRows (tanhPi W (broadcastInDim ⟨2, ![1, n]⟩ ![1] h1 b)) A := by
  funext i
  obtain ⟨p, q, rfl⟩ : ∃ (p : Fin m) (q : Fin n), i = ix2 p q := ⟨i 0, i 1, eq_ix2 i⟩
  show Ideal.tanh (addf (Host.dotGeneral (DotDims.plain m k n) prec A W)
        (broadcastInDim ⟨2, ![m, n]⟩ ![0, 1] h01 (broadcastInDim ⟨2, ![1, n]⟩ ![1] h1 b)) (ix2 p q))
      * Ideal.ofBits .f32 0x40490FDB#32 = _
  rw [dot_bias_apply, onRows_apply]
  rfl

/-! ## The vector unit's spelling -/

/-- The clamped affine layer, accumulating spelling, is the clamped affine row function on every row. -/
theorem vec_clampedAffine {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) :
    maximumf (addf (matmul (DotDims.plain m k n) prec X W (constant (F := Ideal) ⟨2, ![m, n]⟩ .f32 0x00000000#32))
        (broadcastTo ⟨2, ![m, n]⟩ B hb)) (broadcast ⟨2, ![m, n]⟩ (Scalar.ofBits (F := Ideal) .f32 0x00000000#32))
      = onRows (fun a => clamp (affine W B a)) X := by
  funext i
  obtain ⟨p, q, rfl⟩ : ∃ (p : Fin m) (q : Fin n), i = ix2 p q := ⟨i 0, i 1, eq_ix2 i⟩
  rw [clamped_matmul_bias_apply, onRows_apply]

/-- The affine layer, accumulating spelling, is the affine row function on every row. -/
theorem vec_affine {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) :
    addf (matmul (DotDims.plain m k n) prec X W (constant (F := Ideal) ⟨2, ![m, n]⟩ .f32 0x00000000#32))
        (broadcastTo ⟨2, ![m, n]⟩ B hb)
      = onRows (affine W B) X := by
  funext i
  obtain ⟨p, q, rfl⟩ : ∃ (p : Fin m) (q : Fin n), i = ix2 p q := ⟨i 0, i 1, eq_ix2 i⟩
  rw [matmul_bias_apply, onRows_apply]

/-- The shifted clamp, vector spelling, is the shifted-clamp row function on every row. -/
theorem vec_shiftClamp (X : FVec Ideal ⟨2, ![m, n]⟩ .f32) (B : FVec Ideal ⟨2, ![1, n]⟩ .f32)
    (hb : (⟨2, ![1, n]⟩ : Shape).Broadcasts ⟨2, ![m, n]⟩) :
    maximumf (addf X (broadcastTo ⟨2, ![m, n]⟩ B hb)) (broadcast ⟨2, ![m, n]⟩ (Scalar.ofBits (F := Ideal) .f32 0x00000000#32))
      = onRows (shiftClamp B) X := by
  funext i
  obtain ⟨p, q, rfl⟩ : ∃ (p : Fin m) (q : Fin n), i = ix2 p q := ⟨i 0, i 1, eq_ix2 i⟩
  show max (X (ix2 p q) + broadcastTo ⟨2, ![m, n]⟩ B hb (ix2 p q)) (Ideal.ofBits .f32 0x00000000#32) = _
  rw [broadcastTo_oneRow_apply, onRows_apply]
  rfl

/-- The scaled tanh layer, vector spelling, is the scaled-tanh row function on every row. -/
theorem vec_tanhPi {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) :
    mulf (tanh (addf (matmul (DotDims.plain m k n) prec X W (constant (F := Ideal) ⟨2, ![m, n]⟩ .f32 0x00000000#32))
        (broadcastTo ⟨2, ![m, n]⟩ B hb))) (broadcast ⟨2, ![m, n]⟩ (Scalar.ofBits (F := Ideal) .f32 0x40490FDB#32))
      = onRows (tanhPi W B) X := by
  funext i
  obtain ⟨p, q, rfl⟩ : ∃ (p : Fin m) (q : Fin n), i = ix2 p q := ⟨i 0, i 1, eq_ix2 i⟩
  show Ideal.tanh (addf (matmul (DotDims.plain m k n) prec X W (constant (F := Ideal) ⟨2, ![m, n]⟩ .f32 0x00000000#32))
        (broadcastTo ⟨2, ![m, n]⟩ B hb) (ix2 p q)) * Ideal.ofBits .f32 0x40490FDB#32 = _
  rw [matmul_bias_apply, onRows_apply]
  rfl

/-! ## A block of rows -/

/-- A row function on every row, read at row p of a block whose rows are rows r of the whole matrix: if the two rows
    agree the two results agree. -/
theorem onRows_block {M : Nat} (f : (Fin k → EReal) → Fin n → EReal) (x : Mat m k) (X : Mat M k) (p : Fin m) (r : Fin M)
    (hrow : ∀ c : Fin k, x (ix2 p c) = X (ix2 r c)) (q : Fin n) :
    onRows f x (ix2 p q) = onRows f X (ix2 r q) := by
  rw [onRows_apply, onRows_apply]
  exact congrFun (congrArg f (funext hrow)) q

end GcnRows

end
-- ==== Proof.RefSpec.lean ====
/-
  The reference network, stage by stage.

  From the edge list e (two rows of node numbers) the program forms the source and destination lists with one
  self-loop per node appended, counts each node's in-degree by a scatter-add of ones, and weights every edge by
  rsqrt(deg(src)) · rsqrt(deg(dst)); a negative node number is wrapped once by the node count before a lookup.
  Then: an embedding  max(x·W + b, 0); three graph convolutions — project every node's row by W, gather the projected
  rows at the edges' sources, scale by the edge weights, scatter-add into the destinations, add the bias, clamp at
  zero —; and the read-out  tanh(x·W + b) · π₃₂, reshaped. Written here: each stage as a named function of arrays (its
  operations exactly as the program lists them), that the program's composed result term is the composition of these
  stages, and that each dense stage is a function of one row applied to every row.
-/
import proofs.«114775_j59098749993604_1_alg».proof.Proof.Gen.ReferenceIdeal.Run
import proofs.«114775_j59098749993604_1_alg».proof.Proof.DenseStages

set_option maxRecDepth 16384

noncomputable section

namespace Cert.ReferenceIdeal.Spec

open Cert.ReferenceIdeal Cert.ReferenceIdeal.Gen Cert.ReferenceIdeal.Value
open Idealize.ShloMosaic Idealize.ShloMosaic.TcCoe Idealize.SL.Sem Idealize.ShloMosaic.StableHlo
open DenseRows GcnRows

/-- An array of 32-bit integers, an array of floats (extended reals). -/
abbrev IArr (s : Shape) := (⟨s, .i32⟩ : BufTy).Contents (Elt Ideal)
abbrev FArr (s : Shape) := FVec Ideal s .f32

/-- The edges' sources, then every node once (the self-loops). -/
def src (e : IArr S2x3200000) : IArr S3300000 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' destinations, then every node once. -/
def dst (e : IArr S2x3200000) : IArr S3300000 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node number below zero wrapped once by the node count, laid as a column of lookup indices. -/
def lookup (s : IArr S3300000) : IArr S3300000x1 :=
  broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s)

/-- rsqrt of each node's in-degree: ones scatter-added at the destinations. -/
def invSqrtDeg (d : IArr S3300000) : FArr S100000 :=
  Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32)))

/-- The edge weights: rsqrt(deg) at the source times rsqrt(deg) at the destination. -/
def edgeWeight (s d : IArr S3300000) : FArr S3300000 :=
  mulf (Host.gather gather_S100000_S3300000x1_S3300000_n_0_n_n_0_1_1 (invSqrtDeg d) (lookup s)) (Host.gather gather_S100000_S3300000x1_S3300000_n_0_n_n_0_1_1 (invSqrtDeg d) (lookup d))

/-- The neighbour sum: the rows of h at the sources, scaled by the edge weights, scatter-added at the destinations. -/
def neighbourSum (h : FArr S100000x64) (s d : IArr S3300000) (w : FArr S3300000) : FArr S100000x64 :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 d) (mulf (Host.gather gather_S100000x64_S3300000x1_S3300000x64_1_0_n_n_0_1_164 h (lookup s)) (broadcastInDim S3300000x64 ![0, 1] bcast_S3300000x1_S3300000x64_0_1 (broadcastInDim S3300000x1 ![0] bcast_S3300000_S3300000x1_0 w)))

/-- The embedding: max(x·W + b, 0). -/
def embed (x : FArr S100000x4) (W : FArr S4x64) (b : FArr S64) : FArr S100000x64 :=
  maximumf (addf (Host.dotGeneral dot_S100000x4_S4x64_S100000x64_1_0_0_1_n_n none x W) (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The projection inside a convolution: x·W. -/
def project (x : FArr S100000x64) (W : FArr S64x64) : FArr S100000x64 :=
  Host.dotGeneral dot_S100000x64_S64x64_S100000x64_1_0_0_1_n_n none x W

/-- What follows the neighbour sum: max(a + b, 0). -/
def biasClamp (a : FArr S100000x64) (b : FArr S64) : FArr S100000x64 :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- One graph convolution. -/
def conv (x : FArr S100000x64) (W : FArr S64x64) (b : FArr S64) (s d : IArr S3300000) (w : FArr S3300000) : FArr S100000x64 :=
  biasClamp (neighbourSum (project x W) s d w) b

/-- The read-out: tanh(x·W + b) times the float nearest π. -/
def readout (x : FArr S100000x64) (W : FArr S64x3) (b : FArr S3) : FArr S100000x3 :=
  mulf (Host.tanh (addf (Host.dotGeneral dot_S100000x64_S64x3_S100000x3_1_0_0_1_n_n none x W) (broadcastInDim S100000x3 ![0, 1] bcast_S1x3_S100000x3_0_1 (broadcastInDim S1x3 ![1] bcast_S3_S1x3_1 b)))) (broadcastInDim S100000x3 ![] bcast_S_S100000x3 (constant S_ .f32 0x40490FDB#32))

/-- The whole network as one function of the twelve argument arrays. -/
def network (a0 : FArr S1x100000x4) (e : IArr S2x3200000) (Wemb : FArr S4x64) (bemb : FArr S64)
    (W1 : FArr S64x64) (b1 : FArr S64) (W2 : FArr S64x64) (b2 : FArr S64) (W3 : FArr S64x64) (b3 : FArr S64)
    (Wout : FArr S64x3) (bout : FArr S3) : FArr S1x100000x3 :=
  shapeCast _ (readout (conv (conv (conv (embed (shapeCast _ a0 shapeCasts_S1x100000x4_S100000x4) Wemb bemb)
      W1 b1 (src e) (dst e) (edgeWeight (src e) (dst e)))
      W2 b2 (src e) (dst e) (edgeWeight (src e) (dst e)))
      W3 b3 (src e) (dst e) (edgeWeight (src e) (dst e))) Wout bout) shapeCasts_S100000x3_S1x100000x3

set_option maxHeartbeats 4000000 in
/-- The program's composed result term is the network of its argument arrays. -/
theorem result_eq (m : (ℓ : Loc nD τ sig) → Buf (Elt Ideal) ℓ) (c : Dev nD) :
    res_main_v94 (F := Ideal) m c = network (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := by
  unfold res_main_v94
  rfl

/-! ## The dense stages, row by row -/

theorem embed_rows (x : FArr S100000x4) (W : FArr S4x64) (b : FArr S64) :
    embed x W b = onRows (fun a => clamp (affine W (broadcastInDim S1x64 ![1] bcast_S64_S1x64_1 b) a)) x := by
  unfold embed
  exact GcnRows.host_clampedAffine (m := 100000) (k := 4) (n := 64) none x W b bcast_S64_S1x64_1 bcast_S1x64_S100000x64_0_1 bcast_S_S100000x64

theorem project_rows (x : FArr S100000x64) (W : FArr S64x64) : project x W = onRows (linear W) x := by
  unfold project
  exact GcnRows.host_linear (m := 100000) (k := 64) (n := 64) none x W

theorem biasClamp_rows (a : FArr S100000x64) (b : FArr S64) :
    biasClamp a b = onRows (shiftClamp (broadcastInDim S1x64 ![1] bcast_S64_S1x64_1 b)) a := by
  unfold biasClamp
  exact GcnRows.host_shiftClamp (m := 100000) (n := 64) a b bcast_S64_S1x64_1 bcast_S1x64_S100000x64_0_1 bcast_S_S100000x64

theorem readout_rows (x : FArr S100000x64) (W : FArr S64x3) (b : FArr S3) :
    readout x W b = onRows (tanhPi W (broadcastInDim S1x3 ![1] bcast_S3_S1x3_1 b)) x := by
  unfold readout
  exact GcnRows.host_tanhPi (m := 100000) (k := 64) (n := 3) none x W b bcast_S3_S1x3_1 bcast_S1x3_S100000x3_0_1 bcast_S_S100000x3

end Cert.ReferenceIdeal.Spec

end
-- ==== Proof.Launch0.lean ====
/-
  Launch 0 of the program: the clamped affine layer on a hundred thousand rows, ten thousand rows at a time.

  At grid point t the body reads rows 10000·t … 10000·t + 9999 of its input array, the whole weight matrix and the
  whole bias vector, and stores the clamped affine layer of those rows; the write-back puts them at the same rows of the output
  array. The clamped affine layer is a function of one row applied to every row, so block t of the output is block t of
  that function applied to every row of the whole input; the ten blocks tile the output, so the output array ends
  holding it.
-/
import proofs.«114775_j59098749993604_1_alg».proof.Proof.Gen.KernelIdeal.Frame
import proofs.«114775_j59098749993604_1_alg».proof.Proof.DenseStages
import Idealize.ShloMosaic.Lib.Pipeline.Value
import Idealize.ShloMosaic.Lib.ValueIdx

set_option maxRecDepth 16384

noncomputable section

namespace Cert.KernelIdeal.Launch0

open Cert.KernelIdeal Cert.KernelIdeal.Gen
open Idealize.ShloMosaic Idealize.ShloMosaic.TcCoe Idealize.SL.Sem Idealize.ShloMosaic.ValueIdx
open Idealize.ShloMosaic.Pipeline (Dat)
open DenseRows GcnRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the clamped affine layer of its loaded blocks, row by row; the bias vector recast as a one-row matrix
    is the vector laid along axis 1. -/
theorem pay_eq (x : Vec Ideal S10000x4 .f32) (w : Vec Ideal S4x64 .f32) (bb : Vec Ideal S64 .f32)
    (h1 : S64.BroadcastsInDim S1x64 ![1]) :
    k0_pay1 (F := Ideal) x w bb = onRows (fun a => clamp (affine w (broadcastInDim S1x64 ![1] h1 bb) a)) x := by
  unfold k0_pay1
  simp only [shapeCast_self]
  rw [shapeCast_row_eq_broadcastInDim bb shapeCasts_S64_S1x64 h1]
  exact GcnRows.vec_clampedAffine (m := 10000) (k := 4) (n := 64) none x w _ broadcasts_S1x64_S10000x64

/-- The input window's block at point t is rows 10000·t … of the input array. -/
theorem blk_rows (c : Dev nD) (t : Fin cfg0.N) (p : Fin 10000) (r : Fin 100000) (hr : r.val = 10000 * t.val + p.val) (cc : Fin 4) :
    (iblk0 V c 0 t : Vec Ideal S10000x4 .f32) (ix2 p cc) = ((V c (Pipeline.arrRef spec0 0)) : S100000x4.Idx → EReal) (ix2 r cc) := by
  have hi : win0_0.index t 0 = t.val ∧ win0_0.index t 1 = 0 := by
    rcases fin_N0 t with rfl | rfl | rfl | rfl | rfl | rfl | rfl | rfl | rfl | rfl <;> decide
  unfold iblk0
  rw [View.read_apply]
  refine congrArg (V c (Pipeline.arrRef spec0 0)) ?_
  funext a
  apply Fin.ext
  match a with
  | ⟨0, _⟩ => show win0_0.index t 0 * 10000 + 1 * p.val = r.val; rw [hi.1, hr]; omega
  | ⟨1, _⟩ => show win0_0.index t 1 * 4 + 1 * cc.val = cc.val; rw [hi.2]; omega

/-- The weight window's one block is the whole weight matrix, at every point. -/
theorem blk_w (c : Dev nD) (t : Fin cfg0.N) : (iblk0 V c 1 t : Vec Ideal S4x64 .f32) = (V c (Pipeline.arrRef spec0 1)) := by
  have hi : win0_1.index t 0 = 0 ∧ win0_1.index t 1 = 0 := by
    rcases fin_N0 t with rfl | rfl | rfl | rfl | rfl | rfl | rfl | rfl | rfl | rfl <;> decide
  funext y
  unfold iblk0
  rw [View.read_apply]
  refine congrArg (V c (Pipeline.arrRef spec0 1)) ?_
  funext a
  apply Fin.ext
  match a with
  | ⟨0, _⟩ => show win0_1.index t 0 * 4 + 1 * (y 0).val = (y 0).val; rw [hi.1]; omega
  | ⟨1, _⟩ => show win0_1.index t 1 * 64 + 1 * (y 1).val = (y 1).val; rw [hi.2]; omega

/-- The bias window's one block is the whole bias vector, at every point. -/
theorem blk_b (c : Dev nD) (t : Fin cfg0.N) : (iblk0 V c 2 t : Vec Ideal S64 .f32) = (V c (Pipeline.arrRef spec0 2)) := by
  have hi : win0_2.index t 0 = 0 := by
    rcases fin_N0 t with rfl | rfl | rfl | rfl | rfl | rfl | rfl | rfl | rfl | rfl <;> decide
  funext y
  unfold iblk0
  rw [View.read_apply]
  refine congrArg (V c (Pipeline.arrRef spec0 2)) ?_
  funext a
  apply Fin.ext
  match a with
  | ⟨0, _⟩ => show win0_2.index t 0 * 64 + 1 * (y 0).val = (y 0).val; rw [hi]; omega

/-- The output window's block index at point t is (t, 0). -/
theorem out_index (t : Fin cfg0.N) : win0_3.index t 0 = t.val ∧ win0_3.index t 1 = 0 := by
  rcases fin_N0 t with rfl | rfl | rfl | rfl | rfl | rfl | rfl | rfl | rfl | rfl <;> decide

/-- What point t writes back is block t of the row function applied to every row of the input array. -/
theorem flushed_eq (h1 : S64.BroadcastsInDim S1x64 ![1]) (c : Dev nD) (t : Fin cfg0.N) :
    (dat0 V c).flushed 3 t = ((cfg0.win 3).blk t).view.read (Elt Ideal)
      (onRows (fun a => clamp (affine (V c (Pipeline.arrRef spec0 1)) (broadcastInDim S1x64 ![1] h1 (V c (Pipeline.arrRef spec0 2))) a)) ((V c (Pipeline.arrRef spec0 0)) : S100000x4.Idx → EReal) : S100000x64.Idx → EReal) := by
  show (cfg0.win 3).cut (grid0.coords t) ((dat0 V c).after 3 t) = _
  rw [after0_3]
  unfold out0_3
  rw [View.canon_unit_zero hz2]
  simp only [View.ld_unit_zero (S := S10000x4) hz2, View.ld_unit_zero (S := S4x64) hz2, View.ld_unit_zero (S := S64) hz1]
  rw [pay_eq (iblk0 V c 0 t) (iblk0 V c 1 t) (iblk0 V c 2 t) h1, blk_w V c t, blk_b V c t]
  obtain ⟨e0, e1⟩ := out_index t
  have hN : t.val < 10 := by have h := t.isLt; have e : cfg0.N = 10 := N_0; omega
  funext j
  obtain ⟨p, q, rfl⟩ : ∃ (p : Fin 10000) (q : Fin 64), j = ix2 p q := ⟨j 0, j 1, eq_ix2 j⟩
  rw [View.read_apply]
  have he : ((cfg0.win 3).blk t).view.emb (ix2 p q) = (ix2 (⟨10000 * t.val + p.val, by have := p.isLt; omega⟩ : Fin 100000) q : S100000x64.Idx) := by
    funext a
    apply Fin.ext
    match a with
    | ⟨0, _⟩ => show win0_3.index t 0 * 10000 + 1 * p.val = 10000 * t.val + p.val; rw [e0]; omega
    | ⟨1, _⟩ => show win0_3.index t 1 * 64 + 1 * q.val = q.val; rw [e1]; omega
  rw [he]
  exact onRows_block _ _ _ p _ (fun cc => blk_rows V c t p _ rfl cc) q

/-- Every index of the output array lies in the block of the point its row belongs to. -/
theorem covered (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨e0, e1⟩ := out_index (⟨(i 0).val / 10000, ht⟩ : Fin cfg0.N)
  have e0' : win0_3.index (⟨(i 0).val / 10000, ht⟩ : Fin cfg0.N) 0 = (i 0).val / 10000 := e0
  refine ⟨⟨(i 0).val / 10000, ht⟩, flush0_3 _, ?_⟩
  show i ∈ ((View.whole main_v28).slice (win0_3.rect ⟨(i 0).val / 10000, ht⟩)).set
  rw [View.set_slice_whole, Rect.mem_set_unit]
  intro a
  match a with
  | ⟨0, _⟩ =>
    show win0_3.index ⟨(i 0).val / 10000, ht⟩ 0 * 10000 ≤ (i 0).val ∧ (i 0).val < win0_3.index ⟨(i 0).val / 10000, ht⟩ 0 * 10000 + 10000
    rw [e0']; omega
  | ⟨1, _⟩ =>
    show win0_3.index ⟨(i 0).val / 10000, ht⟩ 1 * 64 ≤ (i 1).val ∧ (i 1).val < win0_3.index ⟨(i 0).val / 10000, ht⟩ 1 * 64 + 64
    rw [e1]; omega

/-- THE OUTPUT ARRAY after the launch: the row function applied to every row of the input array as the launch finds it. -/
theorem final (h1 : S64.BroadcastsInDim S1x64 ![1]) (c : Dev nD) :
    (dat0 V c).arrAt 3 cfg0.N
      = (onRows (fun a => clamp (affine (V c (Pipeline.arrRef spec0 1)) (broadcastInDim S1x64 ![1] h1 (V c (Pipeline.arrRef spec0 2))) a)) ((V c (Pipeline.arrRef spec0 0)) : S100000x4.Idx → EReal) : S100000x64.Idx → EReal) :=
  (dat0 V c).arrAt_eq_of_cover 3 _ (fun t _ => flushed_eq V h1 c t) (covered)

end Cert.KernelIdeal.Launch0

end
-- ==== Proof.Launch1.lean ====
/-
  Launch 1 of the program: the affine layer on a hundred thousand rows, ten thousand rows at a time.

  At grid point t the body reads rows 10000·t … 10000·t + 9999 of its input array, the whole weight matrix and the
  whole bias vector, and stores the affine layer of those rows; the write-back puts them at the same rows of the output
  array. The affine layer is a function of one row applied to every row, so block t of the output is block t of
  that function applied to every row of the whole input; the ten blocks tile the output, so the output array ends
  holding it.
-/
import proofs.«114775_j59098749993604_1_alg».proof.Proof.Gen.KernelIdeal.Frame
import proofs.«114775_j59098749993604_1_alg».proof.Proof.DenseStages
import Idealize.ShloMosaic.Lib.Pipeline.Value
import Idealize.ShloMosaic.Lib.ValueIdx

set_option maxRecDepth 16384

noncomputable section

namespace Cert.KernelIdeal.Launch1

open Cert.KernelIdeal Cert.KernelIdeal.Gen
open Idealize.ShloMosaic Idealize.ShloMosaic.TcCoe Idealize.SL.Sem Idealize.ShloMosaic.ValueIdx
open Idealize.ShloMosaic.Pipeline (Dat)
open DenseRows GcnRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the affine layer of its loaded blocks, row by row; the bias vector recast as a one-row matrix
    is the vector laid along axis 1. -/
theorem pay_eq (x : Vec Ideal S10000x64 .f32) (w : Vec Ideal S64x64 .f32) (bb : Vec Ideal S64 .f32)
    (h1 : S64.BroadcastsInDim S1x64 ![1]) :
    k1_pay1 (F := Ideal) x w bb = onRows (affine w (broadcastInDim S1x64 ![1] h1 bb)) x := by
  unfold k1_pay1
  simp only [shapeCast_self, shapeCast_self bb shapeCasts_S64_S64]
  rw [shapeCast_row_eq_broadcastInDim bb shapeCasts_S64_S1x64 h1]
  exact GcnRows.vec_affine (m := 10000) (k := 64) (n := 64) none x w _ broadcasts_S1x64_S10000x64

/-- The input window's block at point t is rows 10000·t … of the input array. -/
theorem blk_rows (c : Dev nD) (t : Fin cfg1.N) (p : Fin 10000) (r : Fin 100000) (hr : r.val = 10000 * t.val + p.val) (cc : Fin 64) :
    (iblk1 V c 0 t : Vec Ideal S10000x64 .f32) (ix2 p cc) = ((V c (Pipeline.arrRef spec1 0)) : S100000x64.Idx → EReal) (ix2 r cc) := by
  have hi : win1_0.index t 0 = t.val ∧ win1_0.index t 1 = 0 := by
    rcases fin_N1 t with rfl | rfl | rfl | rfl | rfl | rfl | rfl | rfl | rfl | rfl <;> decide
  unfold iblk1
  rw [View.read_apply]
  refine congrArg (V c (Pipeline.arrRef spec1 0)) ?_
  funext a
  apply Fin.ext
  match a with
  | ⟨0, _⟩ => show win1_0.index t 0 * 10000 + 1 * p.val = r.val; rw [hi.1, hr]; omega
  | ⟨1, _⟩ => show win1_0.index t 1 * 64 + 1 * cc.val = cc.val; rw [hi.2]; omega

/-- The weight window's one block is the whole weight matrix, at every point. -/
theorem blk_w (c : Dev nD) (t : Fin cfg1.N) : (iblk1 V c 1 t : Vec Ideal S64x64 .f32) = (V c (Pipeline.arrRef spec1 1)) := by
  have hi : win1_1.index t 0 = 0 ∧ win1_1.index t 1 = 0 := by
    rcases fin_N1 t with rfl | rfl | rfl | rfl | rfl | rfl | rfl | rfl | rfl | rfl <;> decide
  funext y
  unfold iblk1
  rw [View.read_apply]
  refine congrArg (V c (Pipeline.arrRef spec1 1)) ?_
  funext a
  apply Fin.ext
  match a with
  | ⟨0, _⟩ => show win1_1.index t 0 * 64 + 1 * (y 0).val = (y 0).val; rw [hi.1]; omega
  | ⟨1, _⟩ => show win1_1.index t 1 * 64 + 1 * (y 1).val = (y 1).val; rw [hi.2]; omega

/-- The bias window's one block is the whole bias vector, at every point. -/
theorem blk_b (c : Dev nD) (t : Fin cfg1.N) : (iblk1 V c 2 t : Vec Ideal S64 .f32) = (V c (Pipeline.arrRef spec1 2)) := by
  have hi : win1_2.index t 0 = 0 := by
    rcases fin_N1 t with rfl | rfl | rfl | rfl | rfl | rfl | rfl | rfl | rfl | rfl <;> decide
  funext y
  unfold iblk1
  rw [View.read_apply]
  refine congrArg (V c (Pipeline.arrRef spec1 2)) ?_
  funext a
  apply Fin.ext
  match a with
  | ⟨0, _⟩ => show win1_2.index t 0 * 64 + 1 * (y 0).val = (y 0).val; rw [hi]; omega

/-- The output window's block index at point t is (t, 0). -/
theorem out_index (t : Fin cfg1.N) : win1_3.index t 0 = t.val ∧ win1_3.index t 1 = 0 := by
  rcases fin_N1 t with rfl | rfl | rfl | rfl | rfl | rfl | rfl | rfl | rfl | rfl <;> decide

/-- What point t writes back is block t of the row function applied to every row of the input array. -/
theorem flushed_eq (h1 : S64.BroadcastsInDim S1x64 ![1]) (c : Dev nD) (t : Fin cfg1.N) :
    (dat1 V c).flushed 3 t = ((cfg1.win 3).blk t).view.read (Elt Ideal)
      (onRows (affine (V c (Pipeline.arrRef spec1 1)) (broadcastInDim S1x64 ![1] h1 (V c (Pipeline.arrRef spec1 2)))) ((V c (Pipeline.arrRef spec1 0)) : S100000x64.Idx → EReal) : S100000x64.Idx → EReal) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S64x64) hz2, View.ld_unit_zero (S := S64) hz1]
  rw [pay_eq (iblk1 V c 0 t) (iblk1 V c 1 t) (iblk1 V c 2 t) h1, blk_w V c t, blk_b V c t]
  obtain ⟨e0, e1⟩ := out_index t
  have hN : t.val < 10 := by have h := t.isLt; have e : cfg1.N = 10 := N_1; omega
  funext j
  obtain ⟨p, q, rfl⟩ : ∃ (p : Fin 10000) (q : Fin 64), j = ix2 p q := ⟨j 0, j 1, eq_ix2 j⟩
  rw [View.read_apply]
  have he : ((cfg1.win 3).blk t).view.emb (ix2 p q) = (ix2 (⟨10000 * t.val + p.val, by have := p.isLt; omega⟩ : Fin 100000) q : S100000x64.Idx) := by
    funext a
    apply Fin.ext
    match a with
    | ⟨0, _⟩ => show win1_3.index t 0 * 10000 + 1 * p.val = 10000 * t.val + p.val; rw [e0]; omega
    | ⟨1, _⟩ => show win1_3.index t 1 * 64 + 1 * q.val = q.val; rw [e1]; omega
  rw [he]
  exact onRows_block _ _ _ p _ (fun cc => blk_rows V c t p _ rfl cc) q

/-- Every index of the output array lies in the block of the point its row belongs to. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨e0, e1⟩ := out_index (⟨(i 0).val / 10000, ht⟩ : Fin cfg1.N)
  have e0' : win1_3.index (⟨(i 0).val / 10000, ht⟩ : Fin cfg1.N) 0 = (i 0).val / 10000 := e0
  refine ⟨⟨(i 0).val / 10000, ht⟩, flush1_3 _, ?_⟩
  show i ∈ ((View.whole main_v30).slice (win1_3.rect ⟨(i 0).val / 10000, ht⟩)).set
  rw [View.set_slice_whole, Rect.mem_set_unit]
  intro a
  match a with
  | ⟨0, _⟩ =>
    show win1_3.index ⟨(i 0).val / 10000, ht⟩ 0 * 10000 ≤ (i 0).val ∧ (i 0).val < win1_3.index ⟨(i 0).val / 10000, ht⟩ 0 * 10000 + 10000
    rw [e0']; omega
  | ⟨1, _⟩ =>
    show win1_3.index ⟨(i 0).val / 10000, ht⟩ 1 * 64 ≤ (i 1).val ∧ (i 1).val < win1_3.index ⟨(i 0).val / 10000, ht⟩ 1 * 64 + 64
    rw [e1]; omega

/-- THE OUTPUT ARRAY after the launch: the row function applied to every row of the input array as the launch finds it. -/
theorem final (h1 : S64.BroadcastsInDim S1x64 ![1]) (c : Dev nD) :
    (dat1 V c).arrAt 3 cfg1.N
      = (onRows (affine (V c (Pipeline.arrRef spec1 1)) (broadcastInDim S1x64 ![1] h1 (V c (Pipeline.arrRef spec1 2)))) ((V c (Pipeline.arrRef spec1 0)) : S100000x64.Idx → EReal) : S100000x64.Idx → EReal) :=
  (dat1 V c).arrAt_eq_of_cover 3 _ (fun t _ => flushed_eq V h1 c t) (covered)

end Cert.KernelIdeal.Launch1

end
-- ==== Proof.Launch2.lean ====
/-
  Launch 2 of the program: the shifted clamp on a hundred thousand rows, ten thousand rows at a time.

  At grid point t the body reads rows 10000·t … 10000·t + 9999 of its input array and the
  whole bias vector, and stores the shifted clamp of those rows; the write-back puts them at the same rows of the output
  array. The shifted clamp is a function of one row applied to every row, so block t of the output is block t of
  that function applied to every row of the whole input; the ten blocks tile the output, so the output array ends
  holding it.
-/
import proofs.«114775_j59098749993604_1_alg».proof.Proof.Gen.KernelIdeal.Frame
import proofs.«114775_j59098749993604_1_alg».proof.Proof.DenseStages
import Idealize.ShloMosaic.Lib.Pipeline.Value
import Idealize.ShloMosaic.Lib.ValueIdx

set_option maxRecDepth 16384

noncomputable section

namespace Cert.KernelIdeal.Launch2

open Cert.KernelIdeal Cert.KernelIdeal.Gen
open Idealize.ShloMosaic Idealize.ShloMosaic.TcCoe Idealize.SL.Sem Idealize.ShloMosaic.ValueIdx
open Idealize.ShloMosaic.Pipeline (Dat)
open DenseRows GcnRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the shifted clamp of its loaded blocks, row by row; the bias vector recast as a one-row matrix
    is the vector laid along axis 1. -/
theorem pay_eq (x : Vec Ideal S10000x64 .f32) (bb : Vec Ideal S64 .f32)
    (h1 : S64.BroadcastsInDim S1x64 ![1]) :
    k2_pay1 (F := Ideal) x bb = onRows (shiftClamp (broadcastInDim S1x64 ![1] h1 bb)) x := by
  unfold k2_pay1
  simp only [shapeCast_self]
  rw [shapeCast_row_eq_broadcastInDim bb shapeCasts_S64_S1x64 h1]
  exact GcnRows.vec_shiftClamp (m := 10000) (n := 64) x _ broadcasts_S1x64_S10000x64

/-- The input window's block at point t is rows 10000·t … of the input array. -/
theorem blk_rows (c : Dev nD) (t : Fin cfg2.N) (p : Fin 10000) (r : Fin 100000) (hr : r.val = 10000 * t.val + p.val) (cc : Fin 64) :
    (iblk2 V c 0 t : Vec Ideal S10000x64 .f32) (ix2 p cc) = ((V c (Pipeline.arrRef spec2 0)) : S100000x64.Idx → EReal) (ix2 r cc) := by
  have hi : win2_0.index t 0 = t.val ∧ win2_0.index t 1 = 0 := by
    rcases fin_N2 t with rfl | rfl | rfl | rfl | rfl | rfl | rfl | rfl | rfl | rfl <;> decide
  unfold iblk2
  rw [View.read_apply]
  refine congrArg (V c (Pipeline.arrRef spec2 0)) ?_
  funext a
  apply Fin.ext
  match a with
  | ⟨0, _⟩ => show win2_0.index t 0 * 10000 + 1 * p.val = r.val; rw [hi.1, hr]; omega
  | ⟨1, _⟩ => show win2_0.index t 1 * 64 + 1 * cc.val = cc.val; rw [hi.2]; omega

/-- The bias window's one block is the whole bias vector, at every point. -/
theorem blk_b (c : Dev nD) (t : Fin cfg2.N) : (iblk2 V c 1 t : Vec Ideal S64 .f32) = (V c (Pipeline.arrRef spec2 1)) := by
  have hi : win2_1.index t 0 = 0 := by
    rcases fin_N2 t with rfl | rfl | rfl | rfl | rfl | rfl | rfl | rfl | rfl | rfl <;> decide
  funext y
  unfold iblk2
  rw [View.read_apply]
  refine congrArg (V c (Pipeline.arrRef spec2 1)) ?_
  funext a
  apply Fin.ext
  match a with
  | ⟨0, _⟩ => show win2_1.index t 0 * 64 + 1 * (y 0).val = (y 0).val; rw [hi]; omega

/-- The output window's block index at point t is (t, 0). -/
theorem out_index (t : Fin cfg2.N) : win2_2.index t 0 = t.val ∧ win2_2.index t 1 = 0 := by
  rcases fin_N2 t with rfl | rfl | rfl | rfl | rfl | rfl | rfl | rfl | rfl | rfl <;> decide

/-- What point t writes back is block t of the row function applied to every row of the input array. -/
theorem flushed_eq (h1 : S64.BroadcastsInDim S1x64 ![1]) (c : Dev nD) (t : Fin cfg2.N) :
    (dat2 V c).flushed 2 t = ((cfg2.win 2).blk t).view.read (Elt Ideal)
      (onRows (shiftClamp (broadcastInDim S1x64 ![1] h1 (V c (Pipeline.arrRef spec2 1)))) ((V c (Pipeline.arrRef spec2 0)) : S100000x64.Idx → EReal) : S100000x64.Idx → EReal) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S64) hz1]
  rw [pay_eq (iblk2 V c 0 t) (iblk2 V c 1 t) h1, blk_b V c t]
  obtain ⟨e0, e1⟩ := out_index t
  have hN : t.val < 10 := by have h := t.isLt; have e : cfg2.N = 10 := N_2; omega
  funext j
  obtain ⟨p, q, rfl⟩ : ∃ (p : Fin 10000) (q : Fin 64), j = ix2 p q := ⟨j 0, j 1, eq_ix2 j⟩
  rw [View.read_apply]
  have he : ((cfg2.win 2).blk t).view.emb (ix2 p q) = (ix2 (⟨10000 * t.val + p.val, by have := p.isLt; omega⟩ : Fin 100000) q : S100000x64.Idx) := by
    funext a
    apply Fin.ext
    match a with
    | ⟨0, _⟩ => show win2_2.index t 0 * 10000 + 1 * p.val = 10000 * t.val + p.val; rw [e0]; omega
    | ⟨1, _⟩ => show win2_2.index t 1 * 64 + 1 * q.val = q.val; rw [e1]; omega
  rw [he]
  exact onRows_block _ _ _ p _ (fun cc => blk_rows V c t p _ rfl cc) q

/-- Every index of the output array lies in the block of the point its row belongs to. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  have ht : (i 0).val / 10000 < cfg2.N := by rw [hN]; omega
  obtain ⟨e0, e1⟩ := out_index (⟨(i 0).val / 10000, ht⟩ : Fin cfg2.N)
  have e0' : win2_2.index (⟨(i 0).val / 10000, ht⟩ : Fin cfg2.N) 0 = (i 0).val / 10000 := e0
  refine ⟨⟨(i 0).val / 10000, ht⟩, flush2_2 _, ?_⟩
  show i ∈ ((View.whole main_v44).slice (win2_2.rect ⟨(i 0).val / 10000, ht⟩)).set
  rw [View.set_slice_whole, Rect.mem_set_unit]
  intro a
  match a with
  | ⟨0, _⟩ =>
    show win2_2.index ⟨(i 0).val / 10000, ht⟩ 0 * 10000 ≤ (i 0).val ∧ (i 0).val < win2_2.index ⟨(i 0).val / 10000, ht⟩ 0 * 10000 + 10000
    rw [e0']; omega
  | ⟨1, _⟩ =>
    show win2_2.index ⟨(i 0).val / 10000, ht⟩ 1 * 64 ≤ (i 1).val ∧ (i 1).val < win2_2.index ⟨(i 0).val / 10000, ht⟩ 1 * 64 + 64
    rw [e1]; omega

/-- THE OUTPUT ARRAY after the launch: the row function applied to every row of the input array as the launch finds it. -/
theorem final (h1 : S64.BroadcastsInDim S1x64 ![1]) (c : Dev nD) :
    (dat2 V c).arrAt 2 cfg2.N
      = (onRows (shiftClamp (broadcastInDim S1x64 ![1] h1 (V c (Pipeline.arrRef spec2 1)))) ((V c (Pipeline.arrRef spec2 0)) : S100000x64.Idx → EReal) : S100000x64.Idx → EReal) :=
  (dat2 V c).arrAt_eq_of_cover 2 _ (fun t _ => flushed_eq V h1 c t) (covered)

end Cert.KernelIdeal.Launch2

end
-- ==== Proof.Launch3.lean ====
/-
  Launch 3 of the program: the affine layer on a hundred thousand rows, ten thousand rows at a time.

  At grid point t the body reads rows 10000·t … 10000·t + 9999 of its input array, the whole weight matrix and the
  whole bias vector, and stores the affine layer of those rows; the write-back puts them at the same rows of the output
  array. The affine layer is a function of one row applied to every row, so block t of the output is block t of
  that function applied to every row of the whole input; the ten blocks tile the output, so the output array ends
  holding it.
-/
import proofs.«114775_j59098749993604_1_alg».proof.Proof.Gen.KernelIdeal.Frame
import proofs.«114775_j59098749993604_1_alg».proof.Proof.DenseStages
import Idealize.ShloMosaic.Lib.Pipeline.Value
import Idealize.ShloMosaic.Lib.ValueIdx

set_option maxRecDepth 16384

noncomputable section

namespace Cert.KernelIdeal.Launch3

open Cert.KernelIdeal Cert.KernelIdeal.Gen
open Idealize.ShloMosaic Idealize.ShloMosaic.TcCoe Idealize.SL.Sem Idealize.ShloMosaic.ValueIdx
open Idealize.ShloMosaic.Pipeline (Dat)
open DenseRows GcnRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the affine layer of its loaded blocks, row by row; the bias vector recast as a one-row matrix
    is the vector laid along axis 1. -/
theorem pay_eq (x : Vec Ideal S10000x64 .f32) (w : Vec Ideal S64x64 .f32) (bb : Vec Ideal S64 .f32)
    (h1 : S64.BroadcastsInDim S1x64 ![1]) :
    k3_pay1 (F := Ideal) x w bb = onRows (affine w (broadcastInDim S1x64 ![1] h1 bb)) x := by
  unfold k3_pay1
  simp only [shapeCast_self, shapeCast_self bb shapeCasts_S64_S64]
  rw [shapeCast_row_eq_broadcastInDim bb shapeCasts_S64_S1x64 h1]
  exact GcnRows.vec_affine (m := 10000) (k := 64) (n := 64) none x w _ broadcasts_S1x64_S10000x64

/-- The input window's block at point t is rows 10000·t … of the input array. -/
theorem blk_rows (c : Dev nD) (t : Fin cfg3.N) (p : Fin 10000) (r : Fin 100000) (hr : r.val = 10000 * t.val + p.val) (cc : Fin 64) :
    (iblk3 V c 0 t : Vec Ideal S10000x64 .f32) (ix2 p cc) = ((V c (Pipeline.arrRef spec3 0)) : S100000x64.Idx → EReal) (ix2 r cc) := by
  have hi : win3_0.index t 0 = t.val ∧ win3_0.index t 1 = 0 := by
    rcases fin_N3 t with rfl | rfl | rfl | rfl | rfl | rfl | rfl | rfl | rfl | rfl <;> decide
  unfold iblk3
  rw [View.read_apply]
  refine congrArg (V c (Pipeline.arrRef spec3 0)) ?_
  funext a
  apply Fin.ext
  match a with
  | ⟨0, _⟩ => show win3_0.index t 0 * 10000 + 1 * p.val = r.val; rw [hi.1, hr]; omega
  | ⟨1, _⟩ => show win3_0.index t 1 * 64 + 1 * cc.val = cc.val; rw [hi.2]; omega

/-- The weight window's one block is the whole weight matrix, at every point. -/
theorem blk_w (c : Dev nD) (t : Fin cfg3.N) : (iblk3 V c 1 t : Vec Ideal S64x64 .f32) = (V c (Pipeline.arrRef spec3 1)) := by
  have hi : win3_1.index t 0 = 0 ∧ win3_1.index t 1 = 0 := by
    rcases fin_N3 t with rfl | rfl | rfl | rfl | rfl | rfl | rfl | rfl | rfl | rfl <;> decide
  funext y
  unfold iblk3
  rw [View.read_apply]
  refine congrArg (V c (Pipeline.arrRef spec3 1)) ?_
  funext a
  apply Fin.ext
  match a with
  | ⟨0, _⟩ => show win3_1.index t 0 * 64 + 1 * (y 0).val = (y 0).val; rw [hi.1]; omega
  | ⟨1, _⟩ => show win3_1.index t 1 * 64 + 1 * (y 1).val = (y 1).val; rw [hi.2]; omega

/-- The bias window's one block is the whole bias vector, at every point. -/
theorem blk_b (c : Dev nD) (t : Fin cfg3.N) : (iblk3 V c 2 t : Vec Ideal S64 .f32) = (V c (Pipeline.arrRef spec3 2)) := by
  have hi : win3_2.index t 0 = 0 := by
    rcases fin_N3 t with rfl | rfl | rfl | rfl | rfl | rfl | rfl | rfl | rfl | rfl <;> decide
  funext y
  unfold iblk3
  rw [View.read_apply]
  refine congrArg (V c (Pipeline.arrRef spec3 2)) ?_
  funext a
  apply Fin.ext
  match a with
  | ⟨0, _⟩ => show win3_2.index t 0 * 64 + 1 * (y 0).val = (y 0).val; rw [hi]; omega

/-- The output window's block index at point t is (t, 0). -/
theorem out_index (t : Fin cfg3.N) : win3_3.index t 0 = t.val ∧ win3_3.index t 1 = 0 := by
  rcases fin_N3 t with rfl | rfl | rfl | rfl | rfl | rfl | rfl | rfl | rfl | rfl <;> decide

/-- What point t writes back is block t of the row function applied to every row of the input array. -/
theorem flushed_eq (h1 : S64.BroadcastsInDim S1x64 ![1]) (c : Dev nD) (t : Fin cfg3.N) :
    (dat3 V c).flushed 3 t = ((cfg3.win 3).blk t).view.read (Elt Ideal)
      (onRows (affine (V c (Pipeline.arrRef spec3 1)) (broadcastInDim S1x64 ![1] h1 (V c (Pipeline.arrRef spec3 2)))) ((V c (Pipeline.arrRef spec3 0)) : S100000x64.Idx → EReal) : S100000x64.Idx → EReal) := by
  show (cfg3.win 3).cut (grid3.coords t) ((dat3 V c).after 3 t) = _
  rw [after3_3]
  unfold out3_3
  rw [View.canon_unit_zero hz2]
  simp only [View.ld_unit_zero (S := S10000x64) hz2, View.ld_unit_zero (S := S64x64) hz2, View.ld_unit_zero (S := S64) hz1]
  rw [pay_eq (iblk3 V c 0 t) (iblk3 V c 1 t) (iblk3 V c 2 t) h1, blk_w V c t, blk_b V c t]
  obtain ⟨e0, e1⟩ := out_index t
  have hN : t.val < 10 := by have h := t.isLt; have e : cfg3.N = 10 := N_3; omega
  funext j
  obtain ⟨p, q, rfl⟩ : ∃ (p : Fin 10000) (q : Fin 64), j = ix2 p q := ⟨j 0, j 1, eq_ix2 j⟩
  rw [View.read_apply]
  have he : ((cfg3.win 3).blk t).view.emb (ix2 p q) = (ix2 (⟨10000 * t.val + p.val, by have := p.isLt; omega⟩ : Fin 100000) q : S100000x64.Idx) := by
    funext a
    apply Fin.ext
    match a with
    | ⟨0, _⟩ => show win3_3.index t 0 * 10000 + 1 * p.val = 10000 * t.val + p.val; rw [e0]; omega
    | ⟨1, _⟩ => show win3_3.index t 1 * 64 + 1 * q.val = q.val; rw [e1]; omega
  rw [he]
  exact onRows_block _ _ _ p _ (fun cc => blk_rows V c t p _ rfl cc) q

/-- Every index of the output array lies in the block of the point its row belongs to. -/
theorem covered (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  have ht : (i 0).val / 10000 < cfg3.N := by rw [hN]; omega
  obtain ⟨e0, e1⟩ := out_index (⟨(i 0).val / 10000, ht⟩ : Fin cfg3.N)
  have e0' : win3_3.index (⟨(i 0).val / 10000, ht⟩ : Fin cfg3.N) 0 = (i 0).val / 10000 := e0
  refine ⟨⟨(i 0).val / 10000, ht⟩, flush3_3 _, ?_⟩
  show i ∈ ((View.whole main_v46).slice (win3_3.rect ⟨(i 0).val / 10000, ht⟩)).set
  rw [View.set_slice_whole, Rect.mem_set_unit]
  intro a
  match a with
  | ⟨0, _⟩ =>
    show win3_3.index ⟨(i 0).val / 10000, ht⟩ 0 * 10000 ≤ (i 0).val ∧ (i 0).val < win3_3.index ⟨(i 0).val / 10000, ht⟩ 0 * 10000 + 10000
    rw [e0']; omega
  | ⟨1, _⟩ =>
    show win3_3.index ⟨(i 0).val / 10000, ht⟩ 1 * 64 ≤ (i 1).val ∧ (i 1).val < win3_3.index ⟨(i 0).val / 10000, ht⟩ 1 * 64 + 64
    rw [e1]; omega

/-- THE OUTPUT ARRAY after the launch: the row function applied to every row of the input array as the launch finds it. -/
theorem final (h1 : S64.BroadcastsInDim S1x64 ![1]) (c : Dev nD) :
    (dat3 V c).arrAt 3 cfg3.N
      = (onRows (affine (V c (Pipeline.arrRef spec3 1)) (broadcastInDim S1x64 ![1] h1 (V c (Pipeline.arrRef spec3 2)))) ((V c (Pipeline.arrRef spec3 0)) : S100000x64.Idx → EReal) : S100000x64.Idx → EReal) :=
  (dat3 V c).arrAt_eq_of_cover 3 _ (fun t _ => flushed_eq V h1 c t) (covered)

end Cert.KernelIdeal.Launch3

end
-- ==== Proof.Launch4.lean ====
/-
  Launch 4 of the program: the shifted clamp on a hundred thousand rows, ten thousand rows at a time.

  At grid point t the body reads rows 10000·t … 10000·t + 9999 of its input array and the
  whole bias vector, and stores the shifted clamp of those rows; the write-back puts them at the same rows of the output
  array. The shifted clamp is a function of one row applied to every row, so block t of the output is block t of
  that function applied to every row of the whole input; the ten blocks tile the output, so the output array ends
  holding it.
-/
import proofs.«114775_j59098749993604_1_alg».proof.Proof.Gen.KernelIdeal.Frame
import proofs.«114775_j59098749993604_1_alg».proof.Proof.DenseStages
import Idealize.ShloMosaic.Lib.Pipeline.Value
import Idealize.ShloMosaic.Lib.ValueIdx

set_option maxRecDepth 16384

noncomputable section

namespace Cert.KernelIdeal.Launch4

open Cert.KernelIdeal Cert.KernelIdeal.Gen
open Idealize.ShloMosaic Idealize.ShloMosaic.TcCoe Idealize.SL.Sem Idealize.ShloMosaic.ValueIdx
open Idealize.ShloMosaic.Pipeline (Dat)
open DenseRows GcnRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the shifted clamp of its loaded blocks, row by row; the bias vector recast as a one-row matrix
    is the vector laid along axis 1. -/
theorem pay_eq (x : Vec Ideal S10000x64 .f32) (bb : Vec Ideal S64 .f32)
    (h1 : S64.BroadcastsInDim S1x64 ![1]) :
    k4_pay1 (F := Ideal) x bb = onRows (shiftClamp (broadcastInDim S1x64 ![1] h1 bb)) x := by
  unfold k4_pay1
  simp only [shapeCast_self]
  rw [shapeCast_row_eq_broadcastInDim bb shapeCasts_S64_S1x64 h1]
  exact GcnRows.vec_shiftClamp (m := 10000) (n := 64) x _ broadcasts_S1x64_S10000x64

/-- The input window's block at point t is rows 10000·t … of the input array. -/
theorem blk_rows (c : Dev nD) (t : Fin cfg4.N) (p : Fin 10000) (r : Fin 100000) (hr : r.val = 10000 * t.val + p.val) (cc : Fin 64) :
    (iblk4 V c 0 t : Vec Ideal S10000x64 .f32) (ix2 p cc) = ((V c (Pipeline.arrRef spec4 0)) : S100000x64.Idx → EReal) (ix2 r cc) := by
  have hi : win4_0.index t 0 = t.val ∧ win4_0.index t 1 = 0 := by
    rcases fin_N4 t with rfl | rfl | rfl | rfl | rfl | rfl | rfl | rfl | rfl | rfl <;> decide
  unfold iblk4
  rw [View.read_apply]
  refine congrArg (V c (Pipeline.arrRef spec4 0)) ?_
  funext a
  apply Fin.ext
  match a with
  | ⟨0, _⟩ => show win4_0.index t 0 * 10000 + 1 * p.val = r.val; rw [hi.1, hr]; omega
  | ⟨1, _⟩ => show win4_0.index t 1 * 64 + 1 * cc.val = cc.val; rw [hi.2]; omega

/-- The bias window's one block is the whole bias vector, at every point. -/
theorem blk_b (c : Dev nD) (t : Fin cfg4.N) : (iblk4 V c 1 t : Vec Ideal S64 .f32) = (V c (Pipeline.arrRef spec4 1)) := by
  have hi : win4_1.index t 0 = 0 := by
    rcases fin_N4 t with rfl | rfl | rfl | rfl | rfl | rfl | rfl | rfl | rfl | rfl <;> decide
  funext y
  unfold iblk4
  rw [View.read_apply]
  refine congrArg (V c (Pipeline.arrRef spec4 1)) ?_
  funext a
  apply Fin.ext
  match a with
  | ⟨0, _⟩ => show win4_1.index t 0 * 64 + 1 * (y 0).val = (y 0).val; rw [hi]; omega

/-- The output window's block index at point t is (t, 0). -/
theorem out_index (t : Fin cfg4.N) : win4_2.index t 0 = t.val ∧ win4_2.index t 1 = 0 := by
  rcases fin_N4 t with rfl | rfl | rfl | rfl | rfl | rfl | rfl | rfl | rfl | rfl <;> decide

/-- What point t writes back is block t of the row function applied to every row of the input array. -/
theorem flushed_eq (h1 : S64.BroadcastsInDim S1x64 ![1]) (c : Dev nD) (t : Fin cfg4.N) :
    (dat4 V c).flushed 2 t = ((cfg4.win 2).blk t).view.read (Elt Ideal)
      (onRows (shiftClamp (broadcastInDim S1x64 ![1] h1 (V c (Pipeline.arrRef spec4 1)))) ((V c (Pipeline.arrRef spec4 0)) : S100000x64.Idx → EReal) : S100000x64.Idx → EReal) := by
  show (cfg4.win 2).cut (grid4.coords t) ((dat4 V c).after 2 t) = _
  rw [after4_2]
  unfold out4_2
  rw [View.canon_unit_zero hz2]
  simp only [View.ld_unit_zero (S := S10000x64) hz2, View.ld_unit_zero (S := S64) hz1]
  rw [pay_eq (iblk4 V c 0 t) (iblk4 V c 1 t) h1, blk_b V c t]
  obtain ⟨e0, e1⟩ := out_index t
  have hN : t.val < 10 := by have h := t.isLt; have e : cfg4.N = 10 := N_4; omega
  funext j
  obtain ⟨p, q, rfl⟩ : ∃ (p : Fin 10000) (q : Fin 64), j = ix2 p q := ⟨j 0, j 1, eq_ix2 j⟩
  rw [View.read_apply]
  have he : ((cfg4.win 2).blk t).view.emb (ix2 p q) = (ix2 (⟨10000 * t.val + p.val, by have := p.isLt; omega⟩ : Fin 100000) q : S100000x64.Idx) := by
    funext a
    apply Fin.ext
    match a with
    | ⟨0, _⟩ => show win4_2.index t 0 * 10000 + 1 * p.val = 10000 * t.val + p.val; rw [e0]; omega
    | ⟨1, _⟩ => show win4_2.index t 1 * 64 + 1 * q.val = q.val; rw [e1]; omega
  rw [he]
  exact onRows_block _ _ _ p _ (fun cc => blk_rows V c t p _ rfl cc) q

/-- Every index of the output array lies in the block of the point its row belongs to. -/
theorem covered (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  have ht : (i 0).val / 10000 < cfg4.N := by rw [hN]; omega
  obtain ⟨e0, e1⟩ := out_index (⟨(i 0).val / 10000, ht⟩ : Fin cfg4.N)
  have e0' : win4_2.index (⟨(i 0).val / 10000, ht⟩ : Fin cfg4.N) 0 = (i 0).val / 10000 := e0
  refine ⟨⟨(i 0).val / 10000, ht⟩, flush4_2 _, ?_⟩
  show i ∈ ((View.whole main_v60).slice (win4_2.rect ⟨(i 0).val / 10000, ht⟩)).set
  rw [View.set_slice_whole, Rect.mem_set_unit]
  intro a
  match a with
  | ⟨0, _⟩ =>
    show win4_2.index ⟨(i 0).val / 10000, ht⟩ 0 * 10000 ≤ (i 0).val ∧ (i 0).val < win4_2.index ⟨(i 0).val / 10000, ht⟩ 0 * 10000 + 10000
    rw [e0']; omega
  | ⟨1, _⟩ =>
    show win4_2.index ⟨(i 0).val / 10000, ht⟩ 1 * 64 ≤ (i 1).val ∧ (i 1).val < win4_2.index ⟨(i 0).val / 10000, ht⟩ 1 * 64 + 64
    rw [e1]; omega

/-- THE OUTPUT ARRAY after the launch: the row function applied to every row of the input array as the launch finds it. -/
theorem final (h1 : S64.BroadcastsInDim S1x64 ![1]) (c : Dev nD) :
    (dat4 V c).arrAt 2 cfg4.N
      = (onRows (shiftClamp (broadcastInDim S1x64 ![1] h1 (V c (Pipeline.arrRef spec4 1)))) ((V c (Pipeline.arrRef spec4 0)) : S100000x64.Idx → EReal) : S100000x64.Idx → EReal) :=
  (dat4 V c).arrAt_eq_of_cover 2 _ (fun t _ => flushed_eq V h1 c t) (covered)

end Cert.KernelIdeal.Launch4

end
-- ==== Proof.Launch5.lean ====
/-
  Launch 5 of the program: the affine layer on a hundred thousand rows, ten thousand rows at a time.

  At grid point t the body reads rows 10000·t … 10000·t + 9999 of its input array, the whole weight matrix and the
  whole bias vector, and stores the affine layer of those rows; the write-back puts them at the same rows of the output
  array. The affine layer is a function of one row applied to every row, so block t of the output is block t of
  that function applied to every row of the whole input; the ten blocks tile the output, so the output array ends
  holding it.
-/
import proofs.«114775_j59098749993604_1_alg».proof.Proof.Gen.KernelIdeal.Frame
import proofs.«114775_j59098749993604_1_alg».proof.Proof.DenseStages
import Idealize.ShloMosaic.Lib.Pipeline.Value
import Idealize.ShloMosaic.Lib.ValueIdx

set_option maxRecDepth 16384

noncomputable section

namespace Cert.KernelIdeal.Launch5

open Cert.KernelIdeal Cert.KernelIdeal.Gen
open Idealize.ShloMosaic Idealize.ShloMosaic.TcCoe Idealize.SL.Sem Idealize.ShloMosaic.ValueIdx
open Idealize.ShloMosaic.Pipeline (Dat)
open DenseRows GcnRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the affine layer of its loaded blocks, row by row; the bias vector recast as a one-row matrix
    is the vector laid along axis 1. -/
theorem pay_eq (x : Vec Ideal S10000x64 .f32) (w : Vec Ideal S64x64 .f32) (bb : Vec Ideal S64 .f32)
    (h1 : S64.BroadcastsInDim S1x64 ![1]) :
    k5_pay1 (F := Ideal) x w bb = onRows (affine w (broadcastInDim S1x64 ![1] h1 bb)) x := by
  unfold k5_pay1
  simp only [shapeCast_self, shapeCast_self bb shapeCasts_S64_S64]
  rw [shapeCast_row_eq_broadcastInDim bb shapeCasts_S64_S1x64 h1]
  exact GcnRows.vec_affine (m := 10000) (k := 64) (n := 64) none x w _ broadcasts_S1x64_S10000x64

/-- The input window's block at point t is rows 10000·t … of the input array. -/
theorem blk_rows (c : Dev nD) (t : Fin cfg5.N) (p : Fin 10000) (r : Fin 100000) (hr : r.val = 10000 * t.val + p.val) (cc : Fin 64) :
    (iblk5 V c 0 t : Vec Ideal S10000x64 .f32) (ix2 p cc) = ((V c (Pipeline.arrRef spec5 0)) : S100000x64.Idx → EReal) (ix2 r cc) := by
  have hi : win5_0.index t 0 = t.val ∧ win5_0.index t 1 = 0 := by
    rcases fin_N5 t with rfl | rfl | rfl | rfl | rfl | rfl | rfl | rfl | rfl | rfl <;> decide
  unfold iblk5
  rw [View.read_apply]
  refine congrArg (V c (Pipeline.arrRef spec5 0)) ?_
  funext a
  apply Fin.ext
  match a with
  | ⟨0, _⟩ => show win5_0.index t 0 * 10000 + 1 * p.val = r.val; rw [hi.1, hr]; omega
  | ⟨1, _⟩ => show win5_0.index t 1 * 64 + 1 * cc.val = cc.val; rw [hi.2]; omega

/-- The weight window's one block is the whole weight matrix, at every point. -/
theorem blk_w (c : Dev nD) (t : Fin cfg5.N) : (iblk5 V c 1 t : Vec Ideal S64x64 .f32) = (V c (Pipeline.arrRef spec5 1)) := by
  have hi : win5_1.index t 0 = 0 ∧ win5_1.index t 1 = 0 := by
    rcases fin_N5 t with rfl | rfl | rfl | rfl | rfl | rfl | rfl | rfl | rfl | rfl <;> decide
  funext y
  unfold iblk5
  rw [View.read_apply]
  refine congrArg (V c (Pipeline.arrRef spec5 1)) ?_
  funext a
  apply Fin.ext
  match a with
  | ⟨0, _⟩ => show win5_1.index t 0 * 64 + 1 * (y 0).val = (y 0).val; rw [hi.1]; omega
  | ⟨1, _⟩ => show win5_1.index t 1 * 64 + 1 * (y 1).val = (y 1).val; rw [hi.2]; omega

/-- The bias window's one block is the whole bias vector, at every point. -/
theorem blk_b (c : Dev nD) (t : Fin cfg5.N) : (iblk5 V c 2 t : Vec Ideal S64 .f32) = (V c (Pipeline.arrRef spec5 2)) := by
  have hi : win5_2.index t 0 = 0 := by
    rcases fin_N5 t with rfl | rfl | rfl | rfl | rfl | rfl | rfl | rfl | rfl | rfl <;> decide
  funext y
  unfold iblk5
  rw [View.read_apply]
  refine congrArg (V c (Pipeline.arrRef spec5 2)) ?_
  funext a
  apply Fin.ext
  match a with
  | ⟨0, _⟩ => show win5_2.index t 0 * 64 + 1 * (y 0).val = (y 0).val; rw [hi]; omega

/-- The output window's block index at point t is (t, 0). -/
theorem out_index (t : Fin cfg5.N) : win5_3.index t 0 = t.val ∧ win5_3.index t 1 = 0 := by
  rcases fin_N5 t with rfl | rfl | rfl | rfl | rfl | rfl | rfl | rfl | rfl | rfl <;> decide

set_option maxHeartbeats 1000000 in
/-- What point t writes back is block t of the row function applied to every row of the input array. -/
theorem flushed_eq (h1 : S64.BroadcastsInDim S1x64 ![1]) (c : Dev nD) (t : Fin cfg5.N) :
    (dat5 V c).flushed 3 t = ((cfg5.win 3).blk t).view.read (Elt Ideal)
      (onRows (affine (V c (Pipeline.arrRef spec5 1)) (broadcastInDim S1x64 ![1] h1 (V c (Pipeline.arrRef spec5 2)))) ((V c (Pipeline.arrRef spec5 0)) : S100000x64.Idx → EReal) : S100000x64.Idx → EReal) := by
  show (cfg5.win 3).cut (grid5.coords t) ((dat5 V c).after 3 t) = _
  rw [after5_3]
  unfold out5_3
  rw [View.canon_unit_zero hz2]
  simp only [View.ld_unit_zero (S := S10000x64) hz2, View.ld_unit_zero (S := S64x64) hz2, View.ld_unit_zero (S := S64) hz1]
  rw [pay_eq (iblk5 V c 0 t) (iblk5 V c 1 t) (iblk5 V c 2 t) h1, blk_w V c t, blk_b V c t]
  obtain ⟨e0, e1⟩ := out_index t
  have hN : t.val < 10 := by have h := t.isLt; have e : cfg5.N = 10 := N_5; omega
  funext j
  obtain ⟨p, q, rfl⟩ : ∃ (p : Fin 10000) (q : Fin 64), j = ix2 p q := ⟨j 0, j 1, eq_ix2 j⟩
  rw [View.read_apply]
  have he : ((cfg5.win 3).blk t).view.emb (ix2 p q) = (ix2 (⟨10000 * t.val + p.val, by have := p.isLt; omega⟩ : Fin 100000) q : S100000x64.Idx) := by
    funext a
    apply Fin.ext
    match a with
    | ⟨0, _⟩ => show win5_3.index t 0 * 10000 + 1 * p.val = 10000 * t.val + p.val; rw [e0]; omega
    | ⟨1, _⟩ => show win5_3.index t 1 * 64 + 1 * q.val = q.val; rw [e1]; omega
  rw [he]
  exact onRows_block (m := 10000) (k := 64) (n := 64) (M := 100000) _ _ _ p _ (fun cc => blk_rows V c t p _ rfl cc) q

/-- Every index of the output array lies in the block of the point its row belongs to. -/
theorem covered (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 10 := N_5
  have ht : (i 0).val / 10000 < cfg5.N := by rw [hN]; omega
  obtain ⟨e0, e1⟩ := out_index (⟨(i 0).val / 10000, ht⟩ : Fin cfg5.N)
  have e0' : win5_3.index (⟨(i 0).val / 10000, ht⟩ : Fin cfg5.N) 0 = (i 0).val / 10000 := e0
  refine ⟨⟨(i 0).val / 10000, ht⟩, flush5_3 _, ?_⟩
  show i ∈ ((View.whole main_v62).slice (win5_3.rect ⟨(i 0).val / 10000, ht⟩)).set
  rw [View.set_slice_whole, Rect.mem_set_unit]
  intro a
  match a with
  | ⟨0, _⟩ =>
    show win5_3.index ⟨(i 0).val / 10000, ht⟩ 0 * 10000 ≤ (i 0).val ∧ (i 0).val < win5_3.index ⟨(i 0).val / 10000, ht⟩ 0 * 10000 + 10000
    rw [e0']; omega
  | ⟨1, _⟩ =>
    show win5_3.index ⟨(i 0).val / 10000, ht⟩ 1 * 64 ≤ (i 1).val ∧ (i 1).val < win5_3.index ⟨(i 0).val / 10000, ht⟩ 1 * 64 + 64
    rw [e1]; omega

/-- THE OUTPUT ARRAY after the launch: the row function applied to every row of the input array as the launch finds it. -/
theorem final (h1 : S64.BroadcastsInDim S1x64 ![1]) (c : Dev nD) :
    (dat5 V c).arrAt 3 cfg5.N
      = (onRows (affine (V c (Pipeline.arrRef spec5 1)) (broadcastInDim S1x64 ![1] h1 (V c (Pipeline.arrRef spec5 2)))) ((V c (Pipeline.arrRef spec5 0)) : S100000x64.Idx → EReal) : S100000x64.Idx → EReal) :=
  (dat5 V c).arrAt_eq_of_cover 3 _ (fun t _ => flushed_eq V h1 c t) (covered)

end Cert.KernelIdeal.Launch5

end
-- ==== Proof.Launch6.lean ====
/-
  Launch 6 of the program: the shifted clamp on a hundred thousand rows, ten thousand rows at a time.

  At grid point t the body reads rows 10000·t … 10000·t + 9999 of its input array and the
  whole bias vector, and stores the shifted clamp of those rows; the write-back puts them at the same rows of the output
  array. The shifted clamp is a function of one row applied to every row, so block t of the output is block t of
  that function applied to every row of the whole input; the ten blocks tile the output, so the output array ends
  holding it.
-/
import proofs.«114775_j59098749993604_1_alg».proof.Proof.Gen.KernelIdeal.Frame
import proofs.«114775_j59098749993604_1_alg».proof.Proof.DenseStages
import Idealize.ShloMosaic.Lib.Pipeline.Value
import Idealize.ShloMosaic.Lib.ValueIdx

set_option maxRecDepth 16384

noncomputable section

namespace Cert.KernelIdeal.Launch6

open Cert.KernelIdeal Cert.KernelIdeal.Gen
open Idealize.ShloMosaic Idealize.ShloMosaic.TcCoe Idealize.SL.Sem Idealize.ShloMosaic.ValueIdx
open Idealize.ShloMosaic.Pipeline (Dat)
open DenseRows GcnRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the shifted clamp of its loaded blocks, row by row; the bias vector recast as a one-row matrix
    is the vector laid along axis 1. -/
theorem pay_eq (x : Vec Ideal S10000x64 .f32) (bb : Vec Ideal S64 .f32)
    (h1 : S64.BroadcastsInDim S1x64 ![1]) :
    k6_pay1 (F := Ideal) x bb = onRows (shiftClamp (broadcastInDim S1x64 ![1] h1 bb)) x := by
  unfold k6_pay1
  simp only [shapeCast_self]
  rw [shapeCast_row_eq_broadcastInDim bb shapeCasts_S64_S1x64 h1]
  exact GcnRows.vec_shiftClamp (m := 10000) (n := 64) x _ broadcasts_S1x64_S10000x64

/-- The input window's block at point t is rows 10000·t … of the input array. -/
theorem blk_rows (c : Dev nD) (t : Fin cfg6.N) (p : Fin 10000) (r : Fin 100000) (hr : r.val = 10000 * t.val + p.val) (cc : Fin 64) :
    (iblk6 V c 0 t : Vec Ideal S10000x64 .f32) (ix2 p cc) = ((V c (Pipeline.arrRef spec6 0)) : S100000x64.Idx → EReal) (ix2 r cc) := by
  have hi : win6_0.index t 0 = t.val ∧ win6_0.index t 1 = 0 := by
    rcases fin_N6 t with rfl | rfl | rfl | rfl | rfl | rfl | rfl | rfl | rfl | rfl <;> decide
  unfold iblk6
  rw [View.read_apply]
  refine congrArg (V c (Pipeline.arrRef spec6 0)) ?_
  funext a
  apply Fin.ext
  match a with
  | ⟨0, _⟩ => show win6_0.index t 0 * 10000 + 1 * p.val = r.val; rw [hi.1, hr]; omega
  | ⟨1, _⟩ => show win6_0.index t 1 * 64 + 1 * cc.val = cc.val; rw [hi.2]; omega

/-- The bias window's one block is the whole bias vector, at every point. -/
theorem blk_b (c : Dev nD) (t : Fin cfg6.N) : (iblk6 V c 1 t : Vec Ideal S64 .f32) = (V c (Pipeline.arrRef spec6 1)) := by
  have hi : win6_1.index t 0 = 0 := by
    rcases fin_N6 t with rfl | rfl | rfl | rfl | rfl | rfl | rfl | rfl | rfl | rfl <;> decide
  funext y
  unfold iblk6
  rw [View.read_apply]
  refine congrArg (V c (Pipeline.arrRef spec6 1)) ?_
  funext a
  apply Fin.ext
  match a with
  | ⟨0, _⟩ => show win6_1.index t 0 * 64 + 1 * (y 0).val = (y 0).val; rw [hi]; omega

/-- The output window's block index at point t is (t, 0). -/
theorem out_index (t : Fin cfg6.N) : win6_2.index t 0 = t.val ∧ win6_2.index t 1 = 0 := by
  rcases fin_N6 t with rfl | rfl | rfl | rfl | rfl | rfl | rfl | rfl | rfl | rfl <;> decide

/-- What point t writes back is block t of the row function applied to every row of the input array. -/
theorem flushed_eq (h1 : S64.BroadcastsInDim S1x64 ![1]) (c : Dev nD) (t : Fin cfg6.N) :
    (dat6 V c).flushed 2 t = ((cfg6.win 2).blk t).view.read (Elt Ideal)
      (onRows (shiftClamp (broadcastInDim S1x64 ![1] h1 (V c (Pipeline.arrRef spec6 1)))) ((V c (Pipeline.arrRef spec6 0)) : S100000x64.Idx → EReal) : S100000x64.Idx → EReal) := by
  show (cfg6.win 2).cut (grid6.coords t) ((dat6 V c).after 2 t) = _
  rw [after6_2]
  unfold out6_2
  rw [View.canon_unit_zero hz2]
  simp only [View.ld_unit_zero (S := S10000x64) hz2, View.ld_unit_zero (S := S64) hz1]
  rw [pay_eq (iblk6 V c 0 t) (iblk6 V c 1 t) h1, blk_b V c t]
  obtain ⟨e0, e1⟩ := out_index t
  have hN : t.val < 10 := by have h := t.isLt; have e : cfg6.N = 10 := N_6; omega
  funext j
  obtain ⟨p, q, rfl⟩ : ∃ (p : Fin 10000) (q : Fin 64), j = ix2 p q := ⟨j 0, j 1, eq_ix2 j⟩
  rw [View.read_apply]
  have he : ((cfg6.win 2).blk t).view.emb (ix2 p q) = (ix2 (⟨10000 * t.val + p.val, by have := p.isLt; omega⟩ : Fin 100000) q : S100000x64.Idx) := by
    funext a
    apply Fin.ext
    match a with
    | ⟨0, _⟩ => show win6_2.index t 0 * 10000 + 1 * p.val = 10000 * t.val + p.val; rw [e0]; omega
    | ⟨1, _⟩ => show win6_2.index t 1 * 64 + 1 * q.val = q.val; rw [e1]; omega
  rw [he]
  exact onRows_block _ _ _ p _ (fun cc => blk_rows V c t p _ rfl cc) q

/-- Every index of the output array lies in the block of the point its row belongs to. -/
theorem covered (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 10 := N_6
  have ht : (i 0).val / 10000 < cfg6.N := by rw [hN]; omega
  obtain ⟨e0, e1⟩ := out_index (⟨(i 0).val / 10000, ht⟩ : Fin cfg6.N)
  have e0' : win6_2.index (⟨(i 0).val / 10000, ht⟩ : Fin cfg6.N) 0 = (i 0).val / 10000 := e0
  refine ⟨⟨(i 0).val / 10000, ht⟩, flush6_2 _, ?_⟩
  show i ∈ ((View.whole main_v76).slice (win6_2.rect ⟨(i 0).val / 10000, ht⟩)).set
  rw [View.set_slice_whole, Rect.mem_set_unit]
  intro a
  match a with
  | ⟨0, _⟩ =>
    show win6_2.index ⟨(i 0).val / 10000, ht⟩ 0 * 10000 ≤ (i 0).val ∧ (i 0).val < win6_2.index ⟨(i 0).val / 10000, ht⟩ 0 * 10000 + 10000
    rw [e0']; omega
  | ⟨1, _⟩ =>
    show win6_2.index ⟨(i 0).val / 10000, ht⟩ 1 * 64 ≤ (i 1).val ∧ (i 1).val < win6_2.index ⟨(i 0).val / 10000, ht⟩ 1 * 64 + 64
    rw [e1]; omega

/-- THE OUTPUT ARRAY after the launch: the row function applied to every row of the input array as the launch finds it. -/
theorem final (h1 : S64.BroadcastsInDim S1x64 ![1]) (c : Dev nD) :
    (dat6 V c).arrAt 2 cfg6.N
      = (onRows (shiftClamp (broadcastInDim S1x64 ![1] h1 (V c (Pipeline.arrRef spec6 1)))) ((V c (Pipeline.arrRef spec6 0)) : S100000x64.Idx → EReal) : S100000x64.Idx → EReal) :=
  (dat6 V c).arrAt_eq_of_cover 2 _ (fun t _ => flushed_eq V h1 c t) (covered)

end Cert.KernelIdeal.Launch6

end
-- ==== Proof.Launch7.lean ====
/-
  Launch 7 of the program: the scaled tanh layer on a hundred thousand rows, ten thousand rows at a time.

  At grid point t the body reads rows 10000·t … 10000·t + 9999 of its input array, the whole weight matrix and the
  whole bias vector, and stores the scaled tanh layer of those rows; the write-back puts them at the same rows of the output
  array. The scaled tanh layer is a function of one row applied to every row, so block t of the output is block t of
  that function applied to every row of the whole input; the ten blocks tile the output, so the output array ends
  holding it.
-/
import proofs.«114775_j59098749993604_1_alg».proof.Proof.Gen.KernelIdeal.Frame
import proofs.«114775_j59098749993604_1_alg».proof.Proof.DenseStages
import Idealize.ShloMosaic.Lib.Pipeline.Value
import Idealize.ShloMosaic.Lib.ValueIdx

set_option maxRecDepth 16384

noncomputable section

namespace Cert.KernelIdeal.Launch7

open Cert.KernelIdeal Cert.KernelIdeal.Gen
open Idealize.ShloMosaic Idealize.ShloMosaic.TcCoe Idealize.SL.Sem Idealize.ShloMosaic.ValueIdx
open Idealize.ShloMosaic.Pipeline (Dat)
open DenseRows GcnRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the scaled tanh layer of its loaded blocks, row by row; the bias vector recast as a one-row matrix
    is the vector laid along axis 1. -/
theorem pay_eq (x : Vec Ideal S10000x64 .f32) (w : Vec Ideal S64x3 .f32) (bb : Vec Ideal S3 .f32)
    (h1 : S3.BroadcastsInDim S1x3 ![1]) :
    k7_pay1 (F := Ideal) x w bb = onRows (tanhPi w (broadcastInDim S1x3 ![1] h1 bb)) x := by
  unfold k7_pay1
  simp only [shapeCast_self]
  rw [shapeCast_row_eq_broadcastInDim bb shapeCasts_S3_S1x3 h1]
  exact GcnRows.vec_tanhPi (m := 10000) (k := 64) (n := 3) none x w _ broadcasts_S1x3_S10000x3

/-- The input window's block at point t is rows 10000·t … of the input array. -/
theorem blk_rows (c : Dev nD) (t : Fin cfg7.N) (p : Fin 10000) (r : Fin 100000) (hr : r.val = 10000 * t.val + p.val) (cc : Fin 64) :
    (iblk7 V c 0 t : Vec Ideal S10000x64 .f32) (ix2 p cc) = ((V c (Pipeline.arrRef spec7 0)) : S100000x64.Idx → EReal) (ix2 r cc) := by
  have hi : win7_0.index t 0 = t.val ∧ win7_0.index t 1 = 0 := by
    rcases fin_N7 t with rfl | rfl | rfl | rfl | rfl | rfl | rfl | rfl | rfl | rfl <;> decide
  unfold iblk7
  rw [View.read_apply]
  refine congrArg (V c (Pipeline.arrRef spec7 0)) ?_
  funext a
  apply Fin.ext
  match a with
  | ⟨0, _⟩ => show win7_0.index t 0 * 10000 + 1 * p.val = r.val; rw [hi.1, hr]; omega
  | ⟨1, _⟩ => show win7_0.index t 1 * 64 + 1 * cc.val = cc.val; rw [hi.2]; omega

/-- The weight window's one block is the whole weight matrix, at every point. -/
theorem blk_w (c : Dev nD) (t : Fin cfg7.N) : (iblk7 V c 1 t : Vec Ideal S64x3 .f32) = (V c (Pipeline.arrRef spec7 1)) := by
  have hi : win7_1.index t 0 = 0 ∧ win7_1.index t 1 = 0 := by
    rcases fin_N7 t with rfl | rfl | rfl | rfl | rfl | rfl | rfl | rfl | rfl | rfl <;> decide
  funext y
  unfold iblk7
  rw [View.read_apply]
  refine congrArg (V c (Pipeline.arrRef spec7 1)) ?_
  funext a
  apply Fin.ext
  match a with
  | ⟨0, _⟩ => show win7_1.index t 0 * 64 + 1 * (y 0).val = (y 0).val; rw [hi.1]; omega
  | ⟨1, _⟩ => show win7_1.index t 1 * 3 + 1 * (y 1).val = (y 1).val; rw [hi.2]; omega

/-- The bias window's one block is the whole bias vector, at every point. -/
theorem blk_b (c : Dev nD) (t : Fin cfg7.N) : (iblk7 V c 2 t : Vec Ideal S3 .f32) = (V c (Pipeline.arrRef spec7 2)) := by
  have hi : win7_2.index t 0 = 0 := by
    rcases fin_N7 t with rfl | rfl | rfl | rfl | rfl | rfl | rfl | rfl | rfl | rfl <;> decide
  funext y
  unfold iblk7
  rw [View.read_apply]
  refine congrArg (V c (Pipeline.arrRef spec7 2)) ?_
  funext a
  apply Fin.ext
  match a with
  | ⟨0, _⟩ => show win7_2.index t 0 * 3 + 1 * (y 0).val = (y 0).val; rw [hi]; omega

/-- The output window's block index at point t is (t, 0). -/
theorem out_index (t : Fin cfg7.N) : win7_3.index t 0 = t.val ∧ win7_3.index t 1 = 0 := by
  rcases fin_N7 t with rfl | rfl | rfl | rfl | rfl | rfl | rfl | rfl | rfl | rfl <;> decide

/-- What point t writes back is block t of the row function applied to every row of the input array. -/
theorem flushed_eq (h1 : S3.BroadcastsInDim S1x3 ![1]) (c : Dev nD) (t : Fin cfg7.N) :
    (dat7 V c).flushed 3 t = ((cfg7.win 3).blk t).view.read (Elt Ideal)
      (onRows (tanhPi (V c (Pipeline.arrRef spec7 1)) (broadcastInDim S1x3 ![1] h1 (V c (Pipeline.arrRef spec7 2)))) ((V c (Pipeline.arrRef spec7 0)) : S100000x64.Idx → EReal) : S100000x3.Idx → EReal) := by
  show (cfg7.win 3).cut (grid7.coords t) ((dat7 V c).after 3 t) = _
  rw [after7_3]
  unfold out7_3
  rw [View.canon_unit_zero hz2]
  simp only [View.ld_unit_zero (S := S10000x64) hz2, View.ld_unit_zero (S := S64x3) hz2, View.ld_unit_zero (S := S3) hz1]
  rw [pay_eq (iblk7 V c 0 t) (iblk7 V c 1 t) (iblk7 V c 2 t) h1, blk_w V c t, blk_b V c t]
  obtain ⟨e0, e1⟩ := out_index t
  have hN : t.val < 10 := by have h := t.isLt; have e : cfg7.N = 10 := N_7; omega
  funext j
  obtain ⟨p, q, rfl⟩ : ∃ (p : Fin 10000) (q : Fin 3), j = ix2 p q := ⟨j 0, j 1, eq_ix2 j⟩
  rw [View.read_apply]
  have he : ((cfg7.win 3).blk t).view.emb (ix2 p q) = (ix2 (⟨10000 * t.val + p.val, by have := p.isLt; omega⟩ : Fin 100000) q : S100000x3.Idx) := by
    funext a
    apply Fin.ext
    match a with
    | ⟨0, _⟩ => show win7_3.index t 0 * 10000 + 1 * p.val = 10000 * t.val + p.val; rw [e0]; omega
    | ⟨1, _⟩ => show win7_3.index t 1 * 3 + 1 * q.val = q.val; rw [e1]; omega
  rw [he]
  exact onRows_block _ _ _ p _ (fun cc => blk_rows V c t p _ rfl cc) q

/-- Every index of the output array lies in the block of the point its row belongs to. -/
theorem covered (i : S100000x3.Idx) : ∃ t : Fin cfg7.N, (cfg7.win 3).flush t = true ∧ i ∈ ((cfg7.win 3).blk t).view.set := by
  have hi0 : (i 0).val < 100000 := (i 0).isLt
  have hi1 : (i 1).val < 3 := (i 1).isLt
  have hN : cfg7.N = 10 := N_7
  have ht : (i 0).val / 10000 < cfg7.N := by rw [hN]; omega
  obtain ⟨e0, e1⟩ := out_index (⟨(i 0).val / 10000, ht⟩ : Fin cfg7.N)
  have e0' : win7_3.index (⟨(i 0).val / 10000, ht⟩ : Fin cfg7.N) 0 = (i 0).val / 10000 := e0
  refine ⟨⟨(i 0).val / 10000, ht⟩, flush7_3 _, ?_⟩
  show i ∈ ((View.whole main_v77).slice (win7_3.rect ⟨(i 0).val / 10000, ht⟩)).set
  rw [View.set_slice_whole, Rect.mem_set_unit]
  intro a
  match a with
  | ⟨0, _⟩ =>
    show win7_3.index ⟨(i 0).val / 10000, ht⟩ 0 * 10000 ≤ (i 0).val ∧ (i 0).val < win7_3.index ⟨(i 0).val / 10000, ht⟩ 0 * 10000 + 10000
    rw [e0']; omega
  | ⟨1, _⟩ =>
    show win7_3.index ⟨(i 0).val / 10000, ht⟩ 1 * 3 ≤ (i 1).val ∧ (i 1).val < win7_3.index ⟨(i 0).val / 10000, ht⟩ 1 * 3 + 3
    rw [e1]; omega

/-- THE OUTPUT ARRAY after the launch: the row function applied to every row of the input array as the launch finds it. -/
theorem final (h1 : S3.BroadcastsInDim S1x3 ![1]) (c : Dev nD) :
    (dat7 V c).arrAt 3 cfg7.N
      = (onRows (tanhPi (V c (Pipeline.arrRef spec7 1)) (broadcastInDim S1x3 ![1] h1 (V c (Pipeline.arrRef spec7 2)))) ((V c (Pipeline.arrRef spec7 0)) : S100000x64.Idx → EReal) : S100000x3.Idx → EReal) :=
  (dat7 V c).arrAt_eq_of_cover 3 _ (fun t _ => flushed_eq V h1 c t) (covered)

end Cert.KernelIdeal.Launch7

end
-- ==== Proof.Carry.lean ====
/-
  Buffers carried unchanged through the program's segments.

  A stretch of host operations changes only the buffers its operations write, and a kernel launch changes only its
  own arrays. So a buffer written early and read late — a weight or bias argument, the source and destination lists,
  the edge weights, a launch's output read after a two-operation stretch — holds at the later boundary what it held
  at the earlier one. Each statement below walks one buffer back through the boundaries between its last write and
  its read, one segment at a time.
-/
import proofs.«114775_j59098749993604_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the named stretch writes the buffer of the goal, so the stretch leaves it as it was. -/
macro "unwritten " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem carry_main_arg2_1_0 (c : Dev nD) : W1 m ρ c (Proc.devRef .tc main_arg2) = m ((c : Thread nD τ).loc main_arg2) :=
  calc W1 m ρ c (Proc.devRef .tc main_arg2)
    _ = W0 m ρ c (Proc.devRef .tc main_arg2) := by unwritten hostOps0
    _ = m ((c : Thread nD τ).loc main_arg2) := rfl

theorem carry_main_arg3_1_0 (c : Dev nD) : W1 m ρ c (Proc.devRef .tc main_arg3) = m ((c : Thread nD τ).loc main_arg3) :=
  calc W1 m ρ c (Proc.devRef .tc main_arg3)
    _ = W0 m ρ c (Proc.devRef .tc main_arg3) := by unwritten hostOps0
    _ = m ((c : Thread nD τ).loc main_arg3) := rfl

theorem carry_main_arg4_3_0 (c : Dev nD) : W3 m ρ c (Proc.devRef .tc main_arg4) = m ((c : Thread nD τ).loc main_arg4) :=
  calc W3 m ρ c (Proc.devRef .tc main_arg4)
    _ = W2 m ρ c (Proc.devRef .tc main_arg4) := by unwritten hostOps1
    _ = W1 m ρ c (Proc.devRef .tc main_arg4) := W2_of_ne m ρ c main_arg4 (by decide)
    _ = W0 m ρ c (Proc.devRef .tc main_arg4) := by unwritten hostOps0
    _ = m ((c : Thread nD τ).loc main_arg4) := rfl

theorem carry_main_arg5_5_0 (c : Dev nD) : W5 m ρ c (Proc.devRef .tc main_arg5) = m ((c : Thread nD τ).loc main_arg5) :=
  calc W5 m ρ c (Proc.devRef .tc main_arg5)
    _ = W4 m ρ c (Proc.devRef .tc main_arg5) := by unwritten hostOps2
    _ = W3 m ρ c (Proc.devRef .tc main_arg5) := W4_of_ne m ρ c main_arg5 (by decide)
    _ = W2 m ρ c (Proc.devRef .tc main_arg5) := by unwritten hostOps1
    _ = W1 m ρ c (Proc.devRef .tc main_arg5) := W2_of_ne m ρ c main_arg5 (by decide)
    _ = W0 m ρ c (Proc.devRef .tc main_arg5) := by unwritten hostOps0
    _ = m ((c : Thread nD τ).loc main_arg5) := rfl

theorem carry_main_arg6_7_0 (c : Dev nD) : W7 m ρ c (Proc.devRef .tc main_arg6) = m ((c : Thread nD τ).loc main_arg6) :=
  calc W7 m ρ c (Proc.devRef .tc main_arg6)
    _ = W6 m ρ c (Proc.devRef .tc main_arg6) := by unwritten hostOps3
    _ = W5 m ρ c (Proc.devRef .tc main_arg6) := W6_of_ne m ρ c main_arg6 (by decide)
    _ = W4 m ρ c (Proc.devRef .tc main_arg6) := by unwritten hostOps2
    _ = W3 m ρ c (Proc.devRef .tc main_arg6) := W4_of_ne m ρ c main_arg6 (by decide)
    _ = W2 m ρ c (Proc.devRef .tc main_arg6) := by unwritten hostOps1
    _ = W1 m ρ c (Proc.devRef .tc main_arg6) := W2_of_ne m ρ c main_arg6 (by decide)
    _ = W0 m ρ c (Proc.devRef .tc main_arg6) := by unwritten hostOps0
    _ = m ((c : Thread nD τ).loc main_arg6) := rfl

theorem carry_main_arg7_9_0 (c : Dev nD) : W9 m ρ c (Proc.devRef .tc main_arg7) = m ((c : Thread nD τ).loc main_arg7) :=
  calc W9 m ρ c (Proc.devRef .tc main_arg7)
    _ = W8 m ρ c (Proc.devRef .tc main_arg7) := by unwritten hostOps4
    _ = W7 m ρ c (Proc.devRef .tc main_arg7) := W8_of_ne m ρ c main_arg7 (by decide)
    _ = W6 m ρ c (Proc.devRef .tc main_arg7) := by unwritten hostOps3
    _ = W5 m ρ c (Proc.devRef .tc main_arg7) := W6_of_ne m ρ c main_arg7 (by decide)
    _ = W4 m ρ c (Proc.devRef .tc main_arg7) := by unwritten hostOps2
    _ = W3 m ρ c (Proc.devRef .tc main_arg7) := W4_of_ne m ρ c main_arg7 (by decide)
    _ = W2 m ρ c (Proc.devRef .tc main_arg7) := by unwritten hostOps1
    _ = W1 m ρ c (Proc.devRef .tc main_arg7) := W2_of_ne m ρ c main_arg7 (by decide)
    _ = W0 m ρ c (Proc.devRef .tc main_arg7) := by unwritten hostOps0
    _ = m ((c : Thread nD τ).loc main_arg7) := rfl

theorem carry_main_arg8_11_0 (c : Dev nD) : W11 m ρ c (Proc.devRef .tc main_arg8) = m ((c : Thread nD τ).loc main_arg8) :=
  calc W11 m ρ c (Proc.devRef .tc main_arg8)
    _ = W10 m ρ c (Proc.devRef .tc main_arg8) := by unwritten hostOps5
    _ = W9 m ρ c (Proc.devRef .tc main_arg8) := W10_of_ne m ρ c main_arg8 (by decide)
    _ = W8 m ρ c (Proc.devRef .tc main_arg8) := by unwritten hostOps4
    _ = W7 m ρ c (Proc.devRef .tc main_arg8) := W8_of_ne m ρ c main_arg8 (by decide)
    _ = W6 m ρ c (Proc.devRef .tc main_arg8) := by unwritten hostOps3
    _ = W5 m ρ c (Proc.devRef .tc main_arg8) := W6_of_ne m ρ c main_arg8 (by decide)
    _ = W4 m ρ c (Proc.devRef .tc main_arg8) := by unwritten hostOps2
    _ = W3 m ρ c (Proc.devRef .tc main_arg8) := W4_of_ne m ρ c main_arg8 (by decide)
    _ = W2 m ρ c (Proc.devRef .tc main_arg8) := by unwritten hostOps1
    _ = W1 m ρ c (Proc.devRef .tc main_arg8) := W2_of_ne m ρ c main_arg8 (by decide)
    _ = W0 m ρ c (Proc.devRef .tc main_arg8) := by unwritten hostOps0
    _ = m ((c : Thread nD τ).loc main_arg8) := rfl

theorem carry_main_arg9_13_0 (c : Dev nD) : W13 m ρ c (Proc.devRef .tc main_arg9) = m ((c : Thread nD τ).loc main_arg9) :=
  calc W13 m ρ c (Proc.devRef .tc main_arg9)
    _ = W12 m ρ c (Proc.devRef .tc main_arg9) := by unwritten hostOps6
    _ = W11 m ρ c (Proc.devRef .tc main_arg9) := W12_of_ne m ρ c main_arg9 (by decide)
    _ = W10 m ρ c (Proc.devRef .tc main_arg9) := by unwritten hostOps5
    _ = W9 m ρ c (Proc.devRef .tc main_arg9) := W10_of_ne m ρ c main_arg9 (by decide)
    _ = W8 m ρ c (Proc.devRef .tc main_arg9) := by unwritten hostOps4
    _ = W7 m ρ c (Proc.devRef .tc main_arg9) := W8_of_ne m ρ c main_arg9 (by decide)
    _ = W6 m ρ c (Proc.devRef .tc main_arg9) := by unwritten hostOps3
    _ = W5 m ρ c (Proc.devRef .tc main_arg9) := W6_of_ne m ρ c main_arg9 (by decide)
    _ = W4 m ρ c (Proc.devRef .tc main_arg9) := by unwritten hostOps2
    _ = W3 m ρ c (Proc.devRef .tc main_arg9) := W4_of_ne m ρ c main_arg9 (by decide)
    _ = W2 m ρ c (Proc.devRef .tc main_arg9) := by unwritten hostOps1
    _ = W1 m ρ c (Proc.devRef .tc main_arg9) := W2_of_ne m ρ c main_arg9 (by decide)
    _ = W0 m ρ c (Proc.devRef .tc main_arg9) := by unwritten hostOps0
    _ = m ((c : Thread nD τ).loc main_arg9) := rfl

theorem carry_main_arg10_14_0 (c : Dev nD) : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := by unwritten hostOps6
    _ = W11 m ρ c (Proc.devRef .tc main_arg10) := W12_of_ne m ρ c main_arg10 (by decide)
    _ = W10 m ρ c (Proc.devRef .tc main_arg10) := by unwritten hostOps5
    _ = W9 m ρ c (Proc.devRef .tc main_arg10) := W10_of_ne m ρ c main_arg10 (by decide)
    _ = W8 m ρ c (Proc.devRef .tc main_arg10) := by unwritten hostOps4
    _ = W7 m ρ c (Proc.devRef .tc main_arg10) := W8_of_ne m ρ c main_arg10 (by decide)
    _ = W6 m ρ c (Proc.devRef .tc main_arg10) := by unwritten hostOps3
    _ = W5 m ρ c (Proc.devRef .tc main_arg10) := W6_of_ne m ρ c main_arg10 (by decide)
    _ = W4 m ρ c (Proc.devRef .tc main_arg10) := by unwritten hostOps2
    _ = W3 m ρ c (Proc.devRef .tc main_arg10) := W4_of_ne m ρ c main_arg10 (by decide)
    _ = W2 m ρ c (Proc.devRef .tc main_arg10) := by unwritten hostOps1
    _ = W1 m ρ c (Proc.devRef .tc main_arg10) := W2_of_ne m ρ c main_arg10 (by decide)
    _ = W0 m ρ c (Proc.devRef .tc main_arg10) := by unwritten hostOps0
    _ = m ((c : Thread nD τ).loc main_arg10) := rfl

theorem carry_main_arg11_14_0 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = W12 m ρ c (Proc.devRef .tc main_arg11) := by unwritten hostOps6
    _ = W11 m ρ c (Proc.devRef .tc main_arg11) := W12_of_ne m ρ c main_arg11 (by decide)
    _ = W10 m ρ c (Proc.devRef .tc main_arg11) := by unwritten hostOps5
    _ = W9 m ρ c (Proc.devRef .tc main_arg11) := W10_of_ne m ρ c main_arg11 (by decide)
    _ = W8 m ρ c (Proc.devRef .tc main_arg11) := by unwritten hostOps4
    _ = W7 m ρ c (Proc.devRef .tc main_arg11) := W8_of_ne m ρ c main_arg11 (by decide)
    _ = W6 m ρ c (Proc.devRef .tc main_arg11) := by unwritten hostOps3
    _ = W5 m ρ c (Proc.devRef .tc main_arg11) := W6_of_ne m ρ c main_arg11 (by decide)
    _ = W4 m ρ c (Proc.devRef .tc main_arg11) := by unwritten hostOps2
    _ = W3 m ρ c (Proc.devRef .tc main_arg11) := W4_of_ne m ρ c main_arg11 (by decide)
    _ = W2 m ρ c (Proc.devRef .tc main_arg11) := by unwritten hostOps1
    _ = W1 m ρ c (Proc.devRef .tc main_arg11) := W2_of_ne m ρ c main_arg11 (by decide)
    _ = W0 m ρ c (Proc.devRef .tc main_arg11) := by unwritten hostOps0
    _ = m ((c : Thread nD τ).loc main_arg11) := rfl

theorem carry_main_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by unwritten hostOps1
    _ = W1 m ρ c (Proc.devRef .tc main_v3) := W2_of_ne m ρ c main_v3 (by decide)

theorem carry_main_v6_4_1 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by unwritten hostOps1
    _ = W1 m ρ c (Proc.devRef .tc main_v6) := W2_of_ne m ρ c main_v6 (by decide)

theorem carry_main_v26_4_1 (c : Dev nD) : W4 m ρ c (Proc.devRef .tc main_v26) = W1 m ρ c (Proc.devRef .tc main_v26) :=
  calc W4 m ρ c (Proc.devRef .tc main_v26)
    _ = W3 m ρ c (Proc.devRef .tc main_v26) := W4_of_ne m ρ c main_v26 (by decide)
    _ = W2 m ρ c (Proc.devRef .tc main_v26) := by unwritten hostOps1
    _ = W1 m ρ c (Proc.devRef .tc main_v26) := W2_of_ne m ρ c main_v26 (by decide)

theorem carry_main_v3_8_4 (c : Dev nD) : W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by unwritten hostOps3
    _ = W5 m ρ c (Proc.devRef .tc main_v3) := W6_of_ne m ρ c main_v3 (by decide)
    _ = W4 m ρ c (Proc.devRef .tc main_v3) := by unwritten hostOps2

theorem carry_main_v6_8_4 (c : Dev nD) : W8 m ρ c (Proc.devRef .tc main_v6) = W4 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by unwritten hostOps3
    _ = W5 m ρ c (Proc.devRef .tc main_v6) := W6_of_ne m ρ c main_v6 (by decide)
    _ = W4 m ρ c (Proc.devRef .tc main_v6) := by unwritten hostOps2

theorem carry_main_v26_8_4 (c : Dev nD) : W8 m ρ c (Proc.devRef .tc main_v26) = W4 m ρ c (Proc.devRef .tc main_v26) :=
  calc W8 m ρ c (Proc.devRef .tc main_v26)
    _ = W7 m ρ c (Proc.devRef .tc main_v26) := W8_of_ne m ρ c main_v26 (by decide)
    _ = W6 m ρ c (Proc.devRef .tc main_v26) := by unwritten hostOps3
    _ = W5 m ρ c (Proc.devRef .tc main_v26) := W6_of_ne m ρ c main_v26 (by decide)
    _ = W4 m ρ c (Proc.devRef .tc main_v26) := by unwritten hostOps2

theorem carry_main_v3_12_8 (c : Dev nD) : W12 m ρ c (Proc.devRef .tc main_v3) = W8 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by unwritten hostOps5
    _ = W9 m ρ c (Proc.devRef .tc main_v3) := W10_of_ne m ρ c main_v3 (by decide)
    _ = W8 m ρ c (Proc.devRef .tc main_v3) := by unwritten hostOps4

theorem carry_main_v6_12_8 (c : Dev nD) : W12 m ρ c (Proc.devRef .tc main_v6) = W8 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := by unwritten hostOps5
    _ = W9 m ρ c (Proc.devRef .tc main_v6) := W10_of_ne m ρ c main_v6 (by decide)
    _ = W8 m ρ c (Proc.devRef .tc main_v6) := by unwritten hostOps4

theorem carry_main_v26_12_8 (c : Dev nD) : W12 m ρ c (Proc.devRef .tc main_v26) = W8 m ρ c (Proc.devRef .tc main_v26) :=
  calc W12 m ρ c (Proc.devRef .tc main_v26)
    _ = W11 m ρ c (Proc.devRef .tc main_v26) := W12_of_ne m ρ c main_v26 (by decide)
    _ = W10 m ρ c (Proc.devRef .tc main_v26) := by unwritten hostOps5
    _ = W9 m ρ c (Proc.devRef .tc main_v26) := W10_of_ne m ρ c main_v26 (by decide)
    _ = W8 m ρ c (Proc.devRef .tc main_v26) := by unwritten hostOps4

theorem carry_main_v28_3_2 (c : Dev nD) : W3 m ρ c (Proc.devRef .tc main_v28) = W2 m ρ c (Proc.devRef .tc main_v28) :=
  calc W3 m ρ c (Proc.devRef .tc main_v28)
    _ = W2 m ρ c (Proc.devRef .tc main_v28) := by unwritten hostOps1

theorem carry_main_v44_7_6 (c : Dev nD) : W7 m ρ c (Proc.devRef .tc main_v44) = W6 m ρ c (Proc.devRef .tc main_v44) :=
  calc W7 m ρ c (Proc.devRef .tc main_v44)
    _ = W6 m ρ c (Proc.devRef .tc main_v44) := by unwritten hostOps3

theorem carry_main_v60_11_10 (c : Dev nD) : W11 m ρ c (Proc.devRef .tc main_v60) = W10 m ρ c (Proc.devRef .tc main_v60) :=
  calc W11 m ρ c (Proc.devRef .tc main_v60)
    _ = W10 m ρ c (Proc.devRef .tc main_v60) := by unwritten hostOps5

end Cert.KernelIdeal.Carry

end
-- ==== Proof.HostStages.lean ====
/-
  What the stretches of host operations between the launches compute.

  The first stretch forms, from the edge list, the source and destination lists with the self-loops appended and
  the edge weights rsqrt(deg(src))·rsqrt(deg(dst)), and reshapes the node features to a matrix. Before each projection
  launch a two-operation stretch makes a vector of zeros. After each projection launch a stretch gathers the
  projected rows at the sources, scales them by the edge weights and scatter-adds them at the destinations. The last
  operation reshapes the read-out. Each is the reference network's stage function of buffers at the boundary before
  the stretch: the operations are the reference's own.
-/
import proofs.«114775_j59098749993604_1_alg».proof.Proof.Gen.KernelIdeal.Frame
import proofs.«114775_j59098749993604_1_alg».proof.Proof.RefSpec
import Idealize.ShloMosaic.Lib.StableHlo.Run

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo
open Cert.ReferenceIdeal.Spec (src dst lookup invSqrtDeg edgeWeight neighbourSum)

variable (m : (ℓ : Loc nD τ sig) → Buf (Elt Ideal) ℓ) (ρ : Dev nD → PrngReg)

/-! ## The first stretch: the reshaped input, the index lists, the edge weights -/

theorem at1_v27 (c : Dev nD) : W1 m ρ c (Proc.devRef .tc main_v27) = shapeCast _ (m ((c : Thread nD τ).loc main_arg0)) shapeCasts_S1x100000x4_S100000x4 := by
  show StableHlo.after hostOps0 (W0 m ρ c) (Proc.devRef .tc main_v27) = _
  after_results_simp <;> rfl

theorem at1_v3 (c : Dev nD) : W1 m ρ c (Proc.devRef .tc main_v3) = src (m ((c : Thread nD τ).loc main_arg1)) := by
  show StableHlo.after hostOps0 (W0 m ρ c) (Proc.devRef .tc main_v3) = _
  after_results_simp <;> rfl

theorem at1_v6 (c : Dev nD) : W1 m ρ c (Proc.devRef .tc main_v6) = dst (m ((c : Thread nD τ).loc main_arg1)) := by
  show StableHlo.after hostOps0 (W0 m ρ c) (Proc.devRef .tc main_v6) = _
  after_results_simp <;> rfl

theorem at1_v26 (c : Dev nD) : W1 m ρ c (Proc.devRef .tc main_v26)
    = edgeWeight (src (m ((c : Thread nD τ).loc main_arg1))) (dst (m ((c : Thread nD τ).loc main_arg1))) := by
  show StableHlo.after hostOps0 (W0 m ρ c) (Proc.devRef .tc main_v26) = _
  after_results_simp <;> rfl

/-! ## The zero vectors the projection launches take as their bias -/

theorem at3_v29 (c : Dev nD) : W3 m ρ c (Proc.devRef .tc main_v29) = broadcastInDim S64 ![] bcast_S_S64 (constant (F := Ideal) S_ .f32 0x00000000#32) := by
  show StableHlo.after hostOps1 (W2 m ρ c) (Proc.devRef .tc main_v29) = _
  after_results_simp <;> rfl

theorem at7_v45 (c : Dev nD) : W7 m ρ c (Proc.devRef .tc main_v45) = broadcastInDim S64 ![] bcast_S_S64 (constant (F := Ideal) S_ .f32 0x00000000#32) := by
  show StableHlo.after hostOps3 (W6 m ρ c) (Proc.devRef .tc main_v45) = _
  after_results_simp <;> rfl

theorem at11_v61 (c : Dev nD) : W11 m ρ c (Proc.devRef .tc main_v61) = broadcastInDim S64 ![] bcast_S_S64 (constant (F := Ideal) S_ .f32 0x00000000#32) := by
  show StableHlo.after hostOps5 (W10 m ρ c) (Proc.devRef .tc main_v61) = _
  after_results_simp <;> rfl

/-! ## The neighbour sums -/

set_option maxHeartbeats 2000000 in
theorem at5_v43 (c : Dev nD) : W5 m ρ c (Proc.devRef .tc main_v43)
    = neighbourSum (W4 m ρ c (Proc.devRef .tc main_v30)) (W4 m ρ c (Proc.devRef .tc main_v3)) (W4 m ρ c (Proc.devRef .tc main_v6)) (W4 m ρ c (Proc.devRef .tc main_v26)) := by
  show StableHlo.after hostOps2 (W4 m ρ c) (Proc.devRef .tc main_v43) = _
  after_results_simp <;> rfl

set_option maxHeartbeats 2000000 in
theorem at9_v59 (c : Dev nD) : W9 m ρ c (Proc.devRef .tc main_v59)
    = neighbourSum (W8 m ρ c (Proc.devRef .tc main_v46)) (W8 m ρ c (Proc.devRef .tc main_v3)) (W8 m ρ c (Proc.devRef .tc main_v6)) (W8 m ρ c (Proc.devRef .tc main_v26)) := by
  show StableHlo.after hostOps4 (W8 m ρ c) (Proc.devRef .tc main_v59) = _
  after_results_simp <;> rfl

set_option maxHeartbeats 2000000 in
theorem at13_v75 (c : Dev nD) : W13 m ρ c (Proc.devRef .tc main_v75)
    = neighbourSum (W12 m ρ c (Proc.devRef .tc main_v62)) (W12 m ρ c (Proc.devRef .tc main_v3)) (W12 m ρ c (Proc.devRef .tc main_v6)) (W12 m ρ c (Proc.devRef .tc main_v26)) := by
  show StableHlo.after hostOps6 (W12 m ρ c) (Proc.devRef .tc main_v75) = _
  after_results_simp <;> rfl

/-! ## The last reshape -/

theorem at16_v78 (c : Dev nD) : W16 m ρ c (Proc.devRef .tc main_v78) = shapeCast _ (W15 m ρ c (Proc.devRef .tc main_v77)) shapeCasts_S100000x3_S1x100000x3 := by
  show StableHlo.after hostOps8 (W15 m ρ c) (Proc.devRef .tc main_v78) = _
  after_results_simp <;> rfl

end Cert.KernelIdeal.HostStages

end
-- ==== Proof.Chain.lean ====
/-
  The kernel program's result, boundary by boundary.

  Walking the sixteen segments in order: the first stretch of host operations forms the source and destination
  lists, the edge weights and the reshaped input; launch 0 is the embedding; then three times — a launch that
  projects every row (its bias operand is a vector of zeros, so it adds nothing), a stretch that gathers, scales and
  scatter-adds the projected rows, a launch that adds the bias and clamps —; launch 7 is the read-out and the last
  operation reshapes it. At each boundary the buffer just written is the reference network's stage function of
  buffers at the boundary before; buffers read later are carried unchanged. Composed, the result buffer holds the
  reference network of the twelve argument arrays.
-/
import proofs.«114775_j59098749993604_1_alg».proof.Proof.Gen.KernelIdeal.Frame
import proofs.«114775_j59098749993604_1_alg».proof.Proof.Launch0
import proofs.«114775_j59098749993604_1_alg».proof.Proof.Launch1
import proofs.«114775_j59098749993604_1_alg».proof.Proof.Launch2
import proofs.«114775_j59098749993604_1_alg».proof.Proof.Launch3
import proofs.«114775_j59098749993604_1_alg».proof.Proof.Launch4
import proofs.«114775_j59098749993604_1_alg».proof.Proof.Launch5
import proofs.«114775_j59098749993604_1_alg».proof.Proof.Launch6
import proofs.«114775_j59098749993604_1_alg».proof.Proof.Launch7
import proofs.«114775_j59098749993604_1_alg».proof.Proof.Carry
import proofs.«114775_j59098749993604_1_alg».proof.Proof.RefSpec
import proofs.«114775_j59098749993604_1_alg».proof.Proof.HostStages

set_option maxRecDepth 16384

noncomputable section

namespace Cert.KernelIdeal.Chain

open Cert.KernelIdeal Cert.KernelIdeal.Gen Cert.KernelIdeal.Carry Cert.KernelIdeal.HostStages
open Idealize.ShloMosaic Idealize.ShloMosaic.TcCoe Idealize.SL.Sem
open DenseRows GcnRows
open Cert.ReferenceIdeal.Spec (src dst lookup invSqrtDeg edgeWeight neighbourSum embed project biasClamp conv readout network)

variable (m : (ℓ : Loc nD τ sig) → Buf (Elt Ideal) ℓ) (ρ : Dev nD → PrngReg)

/-! ## Launch 0: the embedding -/

theorem at2_v28 (c : Dev nD) : W2 m ρ c (Proc.devRef .tc main_v28) = embed (W1 m ρ c (Proc.devRef .tc main_v27)) (W1 m ρ c (Proc.devRef .tc main_arg2)) (W1 m ρ c (Proc.devRef .tc main_arg3)) := by
  refine (W2_arr m ρ c 3).trans ?_
  refine (Launch0.final (V1 m ρ) Cert.ReferenceIdeal.Gen.bcast_S64_S1x64_1 c).trans ?_
  exact (Cert.ReferenceIdeal.Spec.embed_rows _ _ _).symm

/-! ## The three convolutions' launches -/

/-- Launch 1: the projection x·W (the zero bias adds nothing). -/
theorem at4_v30 (c : Dev nD) : W4 m ρ c (Proc.devRef .tc main_v30) = project (W3 m ρ c (Proc.devRef .tc main_v28)) (W3 m ρ c (Proc.devRef .tc main_arg4)) := by
  have hz : ∀ i, (broadcastInDim S1x64 ![1] Cert.ReferenceIdeal.Gen.bcast_S64_S1x64_1 (V3 m ρ c (Pipeline.arrRef spec1 2)) : S1x64.Idx → EReal) i = 0 := by
    intro i
    rw [show V3 m ρ c (Pipeline.arrRef spec1 2) = W3 m ρ c (Proc.devRef .tc main_v29) from rfl, at3_v29 m ρ c]
    show Ideal.ofBits .f32 0x00000000#32 = 0
    exact Ideal.ofBits_zero_f32
  refine (W4_arr m ρ c 3).trans ?_
  refine (Launch1.final (V3 m ρ) Cert.ReferenceIdeal.Gen.bcast_S64_S1x64_1 c).trans ?_
  refine Eq.trans ?_ (Cert.ReferenceIdeal.Spec.project_rows _ _).symm
  exact congrArg (fun f => onRows f _) (funext (affine_zero_bias _ _ hz))

/-- Launch 2: add the bias, clamp at zero. -/
theorem at6_v44 (c : Dev nD) : W6 m ρ c (Proc.devRef .tc main_v44) = biasClamp (W5 m ρ c (Proc.devRef .tc main_v43)) (W5 m ρ c (Proc.devRef .tc main_arg5)) := by
  refine (W6_arr m ρ c 2).trans ?_
  refine (Launch2.final (V5 m ρ) Cert.ReferenceIdeal.Gen.bcast_S64_S1x64_1 c).trans ?_
  exact (Cert.ReferenceIdeal.Spec.biasClamp_rows _ _).symm

/-- Launch 3: the projection x·W (the zero bias adds nothing). -/
theorem at8_v46 (c : Dev nD) : W8 m ρ c (Proc.devRef .tc main_v46) = project (W7 m ρ c (Proc.devRef .tc main_v44)) (W7 m ρ c (Proc.devRef .tc main_arg6)) := by
  have hz : ∀ i, (broadcastInDim S1x64 ![1] Cert.ReferenceIdeal.Gen.bcast_S64_S1x64_1 (V7 m ρ c (Pipeline.arrRef spec3 2)) : S1x64.Idx → EReal) i = 0 := by
    intro i
    rw [show V7 m ρ c (Pipeline.arrRef spec3 2) = W7 m ρ c (Proc.devRef .tc main_v45) from rfl, at7_v45 m ρ c]
    show Ideal.ofBits .f32 0x00000000#32 = 0
    exact Ideal.ofBits_zero_f32
  refine (W8_arr m ρ c 3).trans ?_
  refine (Launch3.final (V7 m ρ) Cert.ReferenceIdeal.Gen.bcast_S64_S1x64_1 c).trans ?_
  refine Eq.trans ?_ (Cert.ReferenceIdeal.Spec.project_rows _ _).symm
  exact congrArg (fun f => onRows f _) (funext (affine_zero_bias _ _ hz))

/-- Launch 4: add the bias, clamp at zero. -/
theorem at10_v60 (c : Dev nD) : W10 m ρ c (Proc.devRef .tc main_v60) = biasClamp (W9 m ρ c (Proc.devRef .tc main_v59)) (W9 m ρ c (Proc.devRef .tc main_arg7)) := by
  refine (W10_arr m ρ c 2).trans ?_
  refine (Launch4.final (V9 m ρ) Cert.ReferenceIdeal.Gen.bcast_S64_S1x64_1 c).trans ?_
  exact (Cert.ReferenceIdeal.Spec.biasClamp_rows _ _).symm

/-- Launch 5: the projection x·W (the zero bias adds nothing). -/
theorem at12_v62 (c : Dev nD) : W12 m ρ c (Proc.devRef .tc main_v62) = project (W11 m ρ c (Proc.devRef .tc main_v60)) (W11 m ρ c (Proc.devRef .tc main_arg8)) := by
  have hz : ∀ i, (broadcastInDim S1x64 ![1] Cert.ReferenceIdeal.Gen.bcast_S64_S1x64_1 (V11 m ρ c (Pipeline.arrRef spec5 2)) : S1x64.Idx → EReal) i = 0 := by
    intro i
    rw [show V11 m ρ c (Pipeline.arrRef spec5 2) = W11 m ρ c (Proc.devRef .tc main_v61) from rfl, at11_v61 m ρ c]
    show Ideal.ofBits .f32 0x00000000#32 = 0
    exact Ideal.ofBits_zero_f32
  refine (W12_arr m ρ c 3).trans ?_
  refine (Launch5.final (V11 m ρ) Cert.ReferenceIdeal.Gen.bcast_S64_S1x64_1 c).trans ?_
  refine Eq.trans ?_ (Cert.ReferenceIdeal.Spec.project_rows _ _).symm
  exact congrArg (fun f => onRows f _) (funext (affine_zero_bias _ _ hz))

/-- Launch 6: add the bias, clamp at zero. -/
theorem at14_v76 (c : Dev nD) : W14 m ρ c (Proc.devRef .tc main_v76) = biasClamp (W13 m ρ c (Proc.devRef .tc main_v75)) (W13 m ρ c (Proc.devRef .tc main_arg9)) := by
  refine (W14_arr m ρ c 2).trans ?_
  refine (Launch6.final (V13 m ρ) Cert.ReferenceIdeal.Gen.bcast_S64_S1x64_1 c).trans ?_
  exact (Cert.ReferenceIdeal.Spec.biasClamp_rows _ _).symm

/-! ## Launch 7: the read-out -/

theorem at15_v77 (c : Dev nD) : W15 m ρ c (Proc.devRef .tc main_v77) = readout (W14 m ρ c (Proc.devRef .tc main_v76)) (W14 m ρ c (Proc.devRef .tc main_arg10)) (W14 m ρ c (Proc.devRef .tc main_arg11)) := by
  refine (W15_arr m ρ c 3).trans ?_
  refine (Launch7.final (V14 m ρ) Cert.ReferenceIdeal.Gen.bcast_S3_S1x3_1 c).trans ?_
  exact (Cert.ReferenceIdeal.Spec.readout_rows _ _ _).symm

/-! ## Composed -/

/-- The result buffer at the last boundary is the reference network of the argument arrays as launched. -/
theorem result (c : Dev nD) : W16 m ρ c (Proc.devRef .tc main_v78)
    = network (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11)) := by
  rw [at16_v78 m ρ c, at15_v77 m ρ c, carry_main_arg10_14_0 m ρ c, carry_main_arg11_14_0 m ρ c,
    at14_v76 m ρ c, carry_main_arg9_13_0 m ρ c, at13_v75 m ρ c,
    carry_main_v3_12_8 m ρ c, carry_main_v6_12_8 m ρ c, carry_main_v26_12_8 m ρ c,
    at12_v62 m ρ c, carry_main_arg8_11_0 m ρ c, carry_main_v60_11_10 m ρ c,
    at10_v60 m ρ c, carry_main_arg7_9_0 m ρ c, at9_v59 m ρ c,
    carry_main_v3_8_4 m ρ c, carry_main_v6_8_4 m ρ c, carry_main_v26_8_4 m ρ c,
    at8_v46 m ρ c, carry_main_arg6_7_0 m ρ c, carry_main_v44_7_6 m ρ c,
    at6_v44 m ρ c, carry_main_arg5_5_0 m ρ c, at5_v43 m ρ c,
    carry_main_v3_4_1 m ρ c, carry_main_v6_4_1 m ρ c, carry_main_v26_4_1 m ρ c,
    at4_v30 m ρ c, carry_main_arg4_3_0 m ρ c, carry_main_v28_3_2 m ρ c,
    at2_v28 m ρ c, carry_main_arg2_1_0 m ρ c, carry_main_arg3_1_0 m ρ c,
    at1_v27 m ρ c, at1_v3 m ρ c, at1_v6 m ρ c, at1_v26 m ρ c]
  rfl

end Cert.KernelIdeal.Chain

end
-- ==== Proof.lean ====
/-
  A graph network on a hundred thousand nodes — an embedding, three graph convolutions, a read-out — computed two
  ways: by a program whose dense stages are eight kernel launches over blocks of ten thousand rows with the gathers
  and scatter-adds between them on the host, and by a reference made of host operations only.

  Over the extended reals the two agree for every input. The host operations between the launches are the
  reference's own, on the same index lists. Each launch's output array, assembled from its ten blocks, is the
  reference's dense stage of the launch's input arrays, because a dense stage acts on each row by itself: a product
  accumulated into a zero matrix is the plain product, a change of float format is the identity, and a bias vector
  recast as a one-row matrix is the vector laid along a row. The projection launches receive a bias of zeros, and
  x + 0 = x for every extended real; that is the only law of arithmetic used, so the inputs' finiteness is never
  needed. The float nearest π multiplies the tanh on both sides as the same word.

  The frames of the two kernel programs are the generated ones; the reference's frame is its generated run with the
  result dropped; the ideal pass rewrote nothing, so the idealization claim is trivial.
-/
import proofs.«114775_j59098749993604_1_alg».proof.Defs
import proofs.«114775_j59098749993604_1_alg».proof.Proof.Gen.Kernel
import proofs.«114775_j59098749993604_1_alg».proof.Proof.Gen.Kernel.Frame
import proofs.«114775_j59098749993604_1_alg».proof.Proof.Gen.KernelIdeal
import proofs.«114775_j59098749993604_1_alg».proof.Proof.Gen.KernelIdeal.Frame
import proofs.«114775_j59098749993604_1_alg».proof.Proof.Gen.ReferenceIdeal
import proofs.«114775_j59098749993604_1_alg».proof.Proof.Gen.ReferenceIdeal.Run
import proofs.«114775_j59098749993604_1_alg».proof.Proof.Gen.Pre_finite_inputs
import proofs.«114775_j59098749993604_1_alg».proof.Proof.KernelRun
import proofs.«114775_j59098749993604_1_alg».proof.Proof.RefSpec
import proofs.«114775_j59098749993604_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run names its result and keeps its arguments; the frame keeps the latter. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the reference network of the (agreeing) argument arrays in their result buffers. -/
theorem algebraic : Cert.algebraic_KernelIdeal_ReferenceIdeal := by
  intro m ρ m' ρ' _ hagree
  refine ⟨fun c => Cert.ReferenceIdeal.Spec.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Chain.result m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Spec.result_eq m' c).trans ?_
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
